-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩

class Facts : Prop where
  bcast_S_S4096x41920 : S_.BroadcastsInDim S4096x41920 (![] : Fin 0 → Fin S4096x41920.rank)
  reducesTo_S4096x41920_S_d0_1 : S4096x41920.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S256x41920 : S_.BroadcastsInDim S256x41920 (![] : Fin 0 → Fin S256x41920.rank)
  reducesTo_S256x41920_S_d0_1 : S256x41920.ReducesTo [0, 1] S_
  bcast_S_S256 : S_.BroadcastsInDim S256 (![] : Fin 0 → Fin S256.rank)
  reducesTo_S256_S_d0 : S256.ReducesTo [0] S_
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S1x32 : S_.BroadcastsInDim S1x32 (![] : Fin 0 → Fin S1x32.rank)
  reducesTo_S1x32_S_d0_1 : S1x32.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x32 .f32) (main_arg12 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S1x32 .f32 := Host.absf main_arg11
  let main_cst_20 : FVec F S_ .f32 := constant S_ .f32 0x7F800000#32
  let main_v55 : FVec F S1x32 .f32 := broadcastInDim S1x32 ![] bcast_S_S1x32 main_cst_20
  let main_v56 : IVec S1x32 1 := cmpf .olt main_v54 main_v55
  let main_c_21 : IVec S_ 1 := constantI S_ 1 1#1
  let main_v57 : IVec S_ 1 := (fun x v => Host.reduce IntOp.andi x v reducesTo_S1x32_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S32x512 .f32) (main_arg8 : FVec F S32 .f32) (main_arg9 : FVec F S32x32 .f32) (main_arg10 : FVec F S32 .f32) (main_arg11 : FVec F S1x32 .f32) (main_arg12 : FVec F S1 .f32) (main_v33 : IVec S_ 1) : IVec S_ 1 :=
  let main_v34 : FVec F S32x512 .f32 := Host.absf main_arg7
  let main_cst_12 : FVec F S_ .f32 := constant S_ .f32 0x7F800000#32
  let main_v35 : FVec F S32x512 .f32 := broadcastInDim S32x512 ![] bcast_S_S32x512 main_cst_12
  let main_v36 : IVec S32x512 1 := cmpf .olt main_v34 main_v35
  let main_c_13 : IVec S_ 1 := constantI S_ 1 1#1
  let main_v37 : IVec S_ 1 := (fun x v => Host.reduce IntOp.andi x v reducesTo_S32x512_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg9
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_v48 main_v49 main_v50

def fn_part1 {F : FTy → Type} [FloatOps F] (main_arg4 : FVec F S256 .f32) (main_arg5 : FVec F S256x41920 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) (main_v13 : IVec S_ 1) (main_v16 : IVec S256x41920 1) : IVec S_ 1 :=
  let main_c_5 : IVec S_ 1 := constantI S_ 1 1#1
  let main_v17 : IVec S_ 1 := (fun x v => Host.reduce IntOp.andi x v reducesTo_S256x41920_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x41920 .f32 := Host.absf main_arg5
  let main_cst_8 : FVec F S_ .f32 := constant S_ .f32 0x7F800000#32
  let main_v25 : FVec F S256x41920 .f32 := broadcastInDim S256x41920 ![] bcast_S_S256x41920 main_cst_8
  let main_v26 : IVec S256x41920 1 := cmpf .olt main_v24 main_v25
  let main_c_9 : IVec S_ 1 := constantI S_ 1 1#1
  let main_v27 : IVec S_ 1 := (fun x v => Host.reduce IntOp.andi x v reducesTo_S256x41920_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S4096x41920 .f32) (main_arg1 : FVec F S4096x41920 .f32) (main_arg2 : FVec F S4096x1 .f32) (main_arg3 : FVec F S256x41920 .f32) (main_arg4 : FVec F S256 .f32) (main_arg5 : FVec F S256x41920 .f32) (main_arg6 : FVec F S256 .f32) (main_arg7 : FVec F S32x512 .f32) (main_arg8 : FVec F S32 .f32) (main_arg9 : FVec F S32x32 .f32) (main_arg10 : FVec F S32 .f32) (main_arg11 : FVec F S1x32 .f32) (main_arg12 : FVec F S1 .f32) : IVec S_ 1 :=
  let main_v0 : FVec F S4096x41920 .f32 := Host.absf main_arg0
  let main_cst : FVec F S_ .f32 := constant S_ .f32 0x7F800000#32
  let main_v1 : FVec F S4096x41920 .f32 := broadcastInDim S4096x41920 ![] bcast_S_S4096x41920 main_cst
  let main_v2 : IVec S4096x41920 1 := cmpf .olt main_v0 main_v1
  let main_c : IVec S_ 1 := constantI S_ 1 1#1
  let main_v3 : IVec S_ 1 := (fun x v => Host.reduce IntOp.andi x v reducesTo_S4096x41920_S_d0_1 h_S_) main_v2 main_c
  let main_v4 : FVec F S4096x41920 .f32 := Host.absf main_arg1
  let main_cst_0 : FVec F S_ .f32 := constant S_ .f32 0x7F800000#32
  let main_v5 : FVec F S4096x41920 .f32 := broadcastInDim S4096x41920 ![] bcast_S_S4096x41920 main_cst_0
  let main_v6 : IVec S4096x41920 1 := cmpf .olt main_v4 main_v5
  let main_c_1 : IVec S_ 1 := constantI S_ 1 1#1
  let main_v7 : IVec S_ 1 := (fun x v => Host.reduce IntOp.andi x v reducesTo_S4096x41920_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S256x41920 .f32 := Host.absf main_arg3
  let main_cst_4 : FVec F S_ .f32 := constant S_ .f32 0x7F800000#32
  let main_v15 : FVec F S256x41920 .f32 := broadcastInDim S256x41920 ![] bcast_S_S256x41920 main_cst_4
  let main_v16 : IVec S256x41920 1 := cmpf .olt main_v14 main_v15
  fn_part1 (F := F) main_arg4 main_arg5 main_arg6 main_arg7 main_arg8 main_arg9 main_arg10 main_arg11 main_arg12 main_v13 main_v16
-- ==== Kernel.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S_ : Shape := ⟨0, ![]⟩
abbrev S4096x41984 : Shape := ⟨2, ![4096, 41984]⟩
abbrev S256x41984 : Shape := ⟨2, ![256, 41984]⟩
abbrev S1x256 : Shape := ⟨2, ![1, 256]⟩
abbrev S1x1 : Shape := ⟨2, ![1, 1]⟩
abbrev S2048x1024 : Shape := ⟨2, ![2048, 1024]⟩
abbrev S256x1024 : Shape := ⟨2, ![256, 1024]⟩
abbrev S2048x1 : Shape := ⟨2, ![2048, 1]⟩
abbrev S2048x256 : Shape := ⟨2, ![2048, 256]⟩
abbrev S2048x512 : Shape := ⟨2, ![2048, 512]⟩
abbrev S512x32 : Shape := ⟨2, ![512, 32]⟩
abbrev S2048x32 : Shape := ⟨2, ![2048, 32]⟩
abbrev S2048 : Shape := ⟨1, ![2048]⟩

abbrev nBuf : Space → Nat
  | .hbm => 31
  | .vmem => 22
  | .smem => 0
  | _ => 0

abbrev bufTy : (tb : Table) → Fin (tcTables nBuf tb) → BufTy
  | .hbm, ⟨0, _⟩ => ⟨S4096x41920, .f32⟩
  | .hbm, ⟨1, _⟩ => ⟨S4096x41920, .f32⟩
  | .hbm, ⟨2, _⟩ => ⟨S4096x1, .f32⟩
  | .hbm, ⟨3, _⟩ => ⟨S256x41920, .f32⟩
  | .hbm, ⟨4, _⟩ => ⟨S256, .f32⟩
  | .hbm, ⟨5, _⟩ => ⟨S256x41920, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S_, .i32⟩
  | .hbm, ⟨14, _⟩ => ⟨S_, .f32⟩
  | .hbm, ⟨15, _⟩ => ⟨S4096x41984, .f32⟩
  | .hbm, ⟨16, _⟩ => ⟨S_, .i32⟩
  | .hbm, ⟨17, _⟩ => ⟨S_, .f32⟩
  | .hbm, ⟨18, _⟩ => ⟨S4096x41984, .f32⟩
  | .hbm, ⟨19, _⟩ => ⟨S_, .i32⟩
  | .hbm, ⟨20, _⟩ => ⟨S_, .f32⟩
  | .hbm, ⟨21, _⟩ => ⟨S256x41984, .f32⟩
  | .hbm, ⟨22, _⟩ => ⟨S_, .i32⟩
  | .hbm, ⟨23, _⟩ => ⟨S_, .f32⟩
  | .hbm, ⟨24, _⟩ => ⟨S256x41984, .f32⟩
  | .hbm, ⟨25, _⟩ => ⟨S1x256, .f32⟩
  | .hbm, ⟨26, _⟩ => ⟨S1x256, .f32⟩
  | .hbm, ⟨27, _⟩ => ⟨S1x32, .f32⟩
  | .hbm, ⟨28, _⟩ => ⟨S1x32, .f32⟩
  | .hbm, ⟨29, _⟩ => ⟨S1x1, .f32⟩
  | .hbm, ⟨30, _⟩ => ⟨S4096x1, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S2048x1, .f32⟩
  | .local _ .vmem, ⟨9, _⟩ => ⟨S2048x1, .f32⟩
  | .local _ .vmem, ⟨10, _⟩ => ⟨S1x256, .f32⟩
  | .local _ .vmem, ⟨11, _⟩ => ⟨S1x256, .f32⟩
  | .local _ .vmem, ⟨12, _⟩ => ⟨S32x512, .f32⟩
  | .local _ .vmem, ⟨13, _⟩ => ⟨S1x32, .f32⟩
  | .local _ .vmem, ⟨14, _⟩ => ⟨S32x32, .f32⟩
  | .local _ .vmem, ⟨15, _⟩ => ⟨S1x32, .f32⟩
  | .local _ .vmem, ⟨16, _⟩ => ⟨S1x32, .f32⟩
  | .local _ .vmem, ⟨17, _⟩ => ⟨S1x1, .f32⟩
  | .local _ .vmem, ⟨18, _⟩ => ⟨S2048x1, .f32⟩
  | .local _ .vmem, ⟨19, _⟩ => ⟨S2048x1, .f32⟩
  | .local _ .vmem, ⟨20, _⟩ => ⟨S2048x256, .f32⟩
  | .local _ .vmem, ⟨21, _⟩ => ⟨S2048x256, .f32⟩
  | _, _ => ⟨S4096x41920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_c_1 : Ref sig .tc := ⟨.hbm, 19, rfl⟩
abbrev main_call2_v0 : Ref sig .tc := ⟨.hbm, 20, rfl⟩
abbrev main_v2 : Ref sig .tc := ⟨.hbm, 21, rfl⟩
abbrev main_c_2 : Ref sig .tc := ⟨.hbm, 22, rfl⟩
abbrev main_call3_v0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 41], ![false, false]⟩

def k0_cond2 (i : grid0.Coords) : BitVec 1 :=
  let arg1 : BitVec 32 := BitVec.ofNat 32 (i 1).val
  let c40_i32 : BitVec 32 := 40#32
  let v27 : BitVec 1 := Scalar.cmpi .eq arg1 c40_i32
  let v28 : BitVec 32 := Scalar.extui v27
  let c0_i32_17 : BitVec 32 := 0#32
  let v29 : BitVec 1 := Scalar.cmpi .ne v28 c0_i32_17
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S32x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S2048x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  pads_S4096x41920_S4096x41984_000_0640 : S4096x41920.Pads (![0, 0] : Fin 2 → Nat) ![0, 64] ![0, 0] S4096x41984
  h_S_ : 0 < S_.numel
  pads_S256x41920_S256x41984_000_0640 : S256x41920.Pads (![0, 0] : Fin 2 → Nat) ![0, 64] ![0, 0] S256x41984
  shapeCasts_S256_S1x256 : S256.ShapeCasts S1x256
  shapeCasts_S32_S1x32 : S32.ShapeCasts S1x32
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x1_S2048x1_0_0 : ∀ a, (![0, 0] : Fin 2 → Nat) a + S2048x1.size a ≤ S2048x1.size a
  h_S2048x1 : 0 < S2048x1.numel
  concatenates_S2048x256_S2048x256_S2048x512_d1 : Shape.Concatenates [S2048x256, S2048x256] S2048x512 1
  broadcasts_S2048x1_S2048x512 : S2048x1.Broadcasts S2048x512
  inb_S32x512_S32x512_0_0 : ∀ a, (![0, 0] : Fin 2 → Nat) a + S32x512.size a ≤ S32x512.size a
  h_S32x512 : 0 < S32x512.numel
  transposes_S32x512_p1_0_S512x32 : S32x512.Transposes [1, 0] S512x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S32x32_S32x32_0_0 : ∀ a, (![0, 0] : Fin 2 → Nat) a + S32x32.size a ≤ S32x32.size a
  h_S32x32 : 0 < S32x32.numel
  transposes_S32x32_p1_0_S32x32 : S32x32.Transposes [1, 0] S32x32
  reduces_S2048x32_S2048 : S2048x32.Reduces [1] S2048
  shapeCasts_S2048_S2048x1 : S2048.ShapeCasts S2048x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  dot_S2048x1024_S256x1024_S2048x256_1_1_0_0_n_n_wf : DotDims.WF S2048x1024 S256x1024 S2048x256 [1] [1] [0] [0] [] []
  dot_S2048x512_S512x32_S2048x32_1_0_0_1_n_n_wf : DotDims.WF S2048x512 S512x32 S2048x32 [1] [0] [0] [1] [] []
  dot_S2048x32_S32x32_S2048x32_1_0_0_1_n_n_wf : DotDims.WF S2048x32 S32x32 S2048x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x41984.size a
  hwx0_0 : ∀ i : grid0.Coords, EltTy.bits .f32 = 32 ∨ (Rect.block (s := S4096x41984) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S4096x41984.size a
  hwx0_1 : ∀ i : grid0.Coords, EltTy.bits .f32 = 32 ∨ (Rect.block (s := S4096x41984) S2048x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x41984.size a
  hwx0_2 : ∀ i : grid0.Coords, EltTy.bits .f32 = 32 ∨ (Rect.block (s := S256x41984) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x41984.size a
  hwx0_3 : ∀ i : grid0.Coords, EltTy.bits .f32 = 32 ∨ (Rect.block (s := S256x41984) S256x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x512.size a ≤ S32x512.size a
  hwx0_7 : ∀ i : grid0.Coords, EltTy.bits .f32 = 32 ∨ (Rect.block (s := S32x512) S32x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S32x32.size a ≤ S32x32.size a
  hwx0_9 : ∀ i : grid0.Coords, EltTy.bits .f32 = 32 ∨ (Rect.block (s := S32x32) S32x32.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x32.size a ≤ S1x32.size a
  hwx0_10 : ∀ i : grid0.Coords, EltTy.bits .f32 = 32 ∨ (Rect.block (s := S1x32) S1x32.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x32.size a ≤ S1x32.size a
  hwx0_11 : ∀ i : grid0.Coords, EltTy.bits .f32 = 32 ∨ (Rect.block (s := S1x32) S1x32.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2048x1.size a ≤ S4096x1.size a
  hwx0_13 : ∀ i : grid0.Coords, EltTy.bits .f32 = 32 ∨ (Rect.block (s := S4096x1) S2048x1.size (cc0_transform_13 i) (hinb0_13 i)).WholeWords (EltTy.packing .f32)

variable [Facts₀]

def dot_S2048x1024_S256x1024_S2048x256_1_1_0_0_n_n : DotDims S2048x1024 S256x1024 S2048x256 where
  lhsContracting := [1]
  rhsContracting := [1]
  lhsNonContracting := [0]
  rhsNonContracting := [0]
  lhsBatch := []
  rhsBatch := []
  wf := dot_S2048x1024_S256x1024_S2048x256_1_1_0_0_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S2048x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S32x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v7) S1x32.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x32.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v9) S2048x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun i => !(k0_cond2 i == 1#1) | ⟨_ + 14, h⟩ => absurd h (Nat.not_lt.2 (Nat.le_add_left _ _))

class Facts : Prop extends Facts₀ where

variable [Facts]
-- ==== ReferenceIdeal.lean ====
abbrev S4096x41920 : Shape := ⟨2, ![4096, 41920]⟩
abbrev S4096x1 : Shape := ⟨2, ![4096, 1]⟩
abbrev S256x41920 : Shape := ⟨2, ![256, 41920]⟩
abbrev S256 : Shape := ⟨1, ![256]⟩
abbrev S32x512 : Shape := ⟨2, ![32, 512]⟩
abbrev S32 : Shape := ⟨1, ![32]⟩
abbrev S32x32 : Shape := ⟨2, ![32, 32]⟩
abbrev S1x32 : Shape := ⟨2, ![1, 32]⟩
abbrev S1 : Shape := ⟨1, ![1]⟩
abbrev S41920x256 : Shape := ⟨2, ![41920, 256]⟩
abbrev S4096x256 : Shape := ⟨2, ![4096, 256]⟩
abbrev S1x256 : Shape := ⟨2, ![1, 256]⟩
abbrev S_ : Shape := ⟨0, ![]⟩
abbrev S4096x512 : Shape := ⟨2, ![4096, 512]⟩
abbrev S512x32 : Shape := ⟨2, ![512, 32]⟩
abbrev S4096x32 : Shape := ⟨2, ![4096, 32]⟩
abbrev S32x1 : Shape := ⟨2, ![32, 1]⟩
abbrev S1x1 : Shape := ⟨2, ![1, 1]⟩

abbrev nBuf : Space → Nat
  | .hbm => 72
  | .vmem => 0
  | .smem => 0
  | _ => 0

abbrev bufTy : (tb : Table) → Fin (tcTables nBuf tb) → BufTy
  | .hbm, ⟨0, _⟩ => ⟨S4096x41920, .f32⟩
  | .hbm, ⟨1, _⟩ => ⟨S4096x41920, .f32⟩
  | .hbm, ⟨2, _⟩ => ⟨S4096x1, .f32⟩
  | .hbm, ⟨3, _⟩ => ⟨S256x41920, .f32⟩
  | .hbm, ⟨4, _⟩ => ⟨S256, .f32⟩
  | .hbm, ⟨5, _⟩ => ⟨S256x41920, .f32⟩
  | .hbm, ⟨6, _⟩ => ⟨S256, .f32⟩
  | .hbm, ⟨7, _⟩ => ⟨S32x512, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S1x32, .f32⟩
  | .hbm, ⟨12, _⟩ => ⟨S1, .f32⟩
  | .hbm, ⟨13, _⟩ => ⟨S41920x256, .f32⟩
  | .hbm, ⟨14, _⟩ => ⟨S4096x256, .f32⟩
  | .hbm, ⟨15, _⟩ => ⟨S1x256, .f32⟩
  | .hbm, ⟨16, _⟩ => ⟨S4096x256, .f32⟩
  | .hbm, ⟨17, _⟩ => ⟨S4096x256, .f32⟩
  | .hbm, ⟨18, _⟩ => ⟨S41920x256, .f32⟩
  | .hbm, ⟨19, _⟩ => ⟨S4096x256, .f32⟩
  | .hbm, ⟨20, _⟩ => ⟨S1x256, .f32⟩
  | .hbm, ⟨21, _⟩ => ⟨S4096x256, .f32⟩
  | .hbm, ⟨22, _⟩ => ⟨S4096x256, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x512, .f32⟩
  | .hbm, ⟨27, _⟩ => ⟨S4096x512, .f32⟩
  | .hbm, ⟨28, _⟩ => ⟨S4096x512, .f32⟩
  | .hbm, ⟨29, _⟩ => ⟨S4096x512, .f32⟩
  | .hbm, ⟨30, _⟩ => ⟨S4096x512, .f32⟩
  | .hbm, ⟨31, _⟩ => ⟨S4096x512, .f32⟩
  | .hbm, ⟨32, _⟩ => ⟨S4096x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S512x32, .f32⟩
  | .hbm, ⟨42, _⟩ => ⟨S4096x32, .f32⟩
  | .hbm, ⟨43, _⟩ => ⟨S1x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x32, .f32⟩
  | .hbm, ⟨50, _⟩ => ⟨S4096x32, .f32⟩
  | .hbm, ⟨51, _⟩ => ⟨S_, .f32⟩
  | .hbm, ⟨52, _⟩ => ⟨S4096x32, .f32⟩
  | .hbm, ⟨53, _⟩ => ⟨S4096x32, .f32⟩
  | .hbm, ⟨54, _⟩ => ⟨S32x32, .f32⟩
  | .hbm, ⟨55, _⟩ => ⟨S4096x32, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S4096x32, .f32⟩
  | .hbm, ⟨63, _⟩ => ⟨S4096x32, .f32⟩
  | .hbm, ⟨64, _⟩ => ⟨S_, .f32⟩
  | .hbm, ⟨65, _⟩ => ⟨S4096x32, .f32⟩
  | .hbm, ⟨66, _⟩ => ⟨S4096x32, .f32⟩
  | .hbm, ⟨67, _⟩ => ⟨S32x1, .f32⟩
  | .hbm, ⟨68, _⟩ => ⟨S4096x1, .f32⟩
  | .hbm, ⟨69, _⟩ => ⟨S1x1, .f32⟩
  | .hbm, ⟨70, _⟩ => ⟨S4096x1, .f32⟩
  | .hbm, ⟨71, _⟩ => ⟨S4096x1, .f32⟩
  | _, _ => ⟨S4096x41920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_0 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_cst_3 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_cst_4 : Ref sig .tc := ⟨.hbm, 59, rfl⟩
abbrev main_cst_5 : Ref sig .tc := ⟨.hbm, 60, rfl⟩
abbrev main_call2_v0 : Ref sig .tc := ⟨.hbm, 61, rfl⟩
abbrev main_call2_v1 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩

abbrev nD : Nat := 1
abbrev τ : Topo := Topo.v7x

variable {F : FTy → Type} [FloatOps F]

class Facts₀ : Prop where
  transposes_S256x41920_S41920x256_1_0 : S256x41920.Transposes [1, 0] S41920x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x1 : S_.BroadcastsInDim S4096x1 (![] : Fin 0 → Fin S4096x1.rank)
  concatenates_S4096x256_S4096x256_S4096x512_d1 : Shape.Concatenates [S4096x256, S4096x256] S4096x512 1
  bcast_S4096x1_S4096x512_0_1 : S4096x1.BroadcastsInDim S4096x512 (![0, 1] : Fin 2 → Fin S4096x512.rank)
  bcast_S_S4096x512 : S_.BroadcastsInDim S4096x512 (![] : Fin 0 → Fin S4096x512.rank)
  transposes_S32x512_S512x32_1_0 : S32x512.Transposes [1, 0] S512x32
  bcast_S32_S1x32_1 : S32.BroadcastsInDim S1x32 (![1] : Fin 1 → Fin S1x32.rank)
  bcast_S1x32_S4096x32_0_1 : S1x32.BroadcastsInDim S4096x32 (![0, 1] : Fin 2 → Fin S4096x32.rank)
  bcast_S_S4096x32 : S_.BroadcastsInDim S4096x32 (![] : Fin 0 → Fin S4096x32.rank)
  transposes_S32x32_S32x32_1_0 : S32x32.Transposes [1, 0] S32x32
  transposes_S1x32_S32x1_1_0 : S1x32.Transposes [1, 0] S32x1
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  dot_S4096x41920_S41920x256_S4096x256_1_0_0_1_n_n_wf : DotDims.WF S4096x41920 S41920x256 S4096x256 [1] [0] [0] [1] [] []
  dot_S4096x512_S512x32_S4096x32_1_0_0_1_n_n_wf : DotDims.WF S4096x512 S512x32 S4096x32 [1] [0] [0] [1] [] []
  dot_S4096x32_S32x32_S4096x32_1_0_0_1_n_n_wf : DotDims.WF S4096x32 S32x32 S4096x32 [1] [0] [0] [1] [] []
  dot_S4096x32_S32x1_S4096x1_1_0_0_1_n_n_wf : DotDims.WF S4096x32 S32x1 S4096x1 [1] [0] [0] [1] [] []

variable [Facts₀]

def dot_S4096x41920_S41920x256_S4096x256_1_0_0_1_n_n : DotDims S4096x41920 S41920x256 S4096x256 where
  lhsContracting := [1]
  rhsContracting := [0]
  lhsNonContracting := [0]
  rhsNonContracting := [1]
  lhsBatch := []
  rhsBatch := []
  wf := dot_S4096x41920_S41920x256_S4096x256_1_0_0_1_n_n_wf
def dot_S4096x512_S512x32_S4096x32_1_0_0_1_n_n : DotDims S4096x512 S512x32 S4096x32 where
  lhsContracting := [1]
  rhsContracting := [0]
  lhsNonContracting := [0]
  rhsNonContracting := [1]
  lhsBatch := []
  rhsBatch := []
  wf := dot_S4096x512_S512x32_S4096x32_1_0_0_1_n_n_wf
def dot_S4096x32_S32x32_S4096x32_1_0_0_1_n_n : DotDims S4096x32 S32x32 S4096x32 where
  lhsContracting := [1]
  rhsContracting := [0]
  lhsNonContracting := [0]
  rhsNonContracting := [1]
  lhsBatch := []
  rhsBatch := []
  wf := dot_S4096x32_S32x32_S4096x32_1_0_0_1_n_n_wf
def dot_S4096x32_S32x1_S4096x1_1_0_0_1_n_n : DotDims S4096x32 S32x1 S4096x1 where
  lhsContracting := [1]
  rhsContracting := [0]
  lhsNonContracting := [0]
  rhsNonContracting := [1]
  lhsBatch := []
  rhsBatch := []
  wf := dot_S4096x32_S32x1_S4096x1_1_0_0_1_n_n_wf

class Facts : Prop extends Facts₀ where

variable [Facts]
-- ==== Proof.Spec.lean ====
/-
  The network both programs compute, as one function of the argument arrays over the extended reals.

  Each side's accumulator entry is a feature row dotted with a weight row, plus a bias. A row of the result depends
  only on that row's two accumulator vectors and its side-to-move flag: the two vectors are laid side by side in
  both orders, blended by the flag, clamped to [0, 1], and sent through three small dense layers, each clamped but
  the last. The second half of the file is the one law that joins the two programs: summing the feature axis in
  41 tiles of 1024, zero-padded past 41920 and taken in order into an accumulator that starts at zero, is the plain
  sum over the 41920 features. Only commutativity and associativity of addition and 0 * 0 = 0 are used, so no
  entry needs to be finite.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The two float literals of either program, as their words (never evaluated: the same word stands on both sides). -/
abbrev zeroE : EReal := Ideal.ofBits .f32 0x00000000#32
abbrev oneE : EReal := Ideal.ofBits .f32 0x3F800000#32

/-- The clamp to [0, 1], in the order both programs spell it: the minimum of one and the maximum of zero and x. -/
def clip (x : EReal) : EReal := min oneE (max zeroE x)

/-- One accumulator entry: feature row `r` dotted with weight row `h`, plus the bias at `h`. -/
def accum (X : (⟨2, ![4096, 41920]⟩ : Shape).Idx → EReal) (W : (⟨2, ![256, 41920]⟩ : Shape).Idx → EReal)
    (b : (⟨1, ![256]⟩ : Shape).Idx → EReal) (r : Fin 4096) (h : Fin 256) : EReal :=
  (∑ f : Fin 41920, X (ix2 r f) * W (ix2 h f)) + b (ix1 h)

/-- Entry `j` of the two accumulator vectors laid side by side, first `u` then `v`. -/
def sideBySide (u v : Fin 256 → EReal) (j : Fin 512) : EReal :=
  if h : j.val < 256 then u ⟨j.val, h⟩ else v ⟨j.val - 256, by have := j.isLt; omega⟩

/-- The blend by the side-to-move flag `s`: (1 - s) times (white, black) plus s times (black, white). -/
def blend (wa ba : Fin 256 → EReal) (s : EReal) (j : Fin 512) : EReal :=
  (oneE - s) * sideBySide wa ba j + s * sideBySide ba wa j

/-- First dense layer, 512 to 32, on the clamped blend. -/
def hidden1 (wa ba : Fin 256 → EReal) (s : EReal) (W1 : (⟨2, ![32, 512]⟩ : Shape).Idx → EReal)
    (b1 : (⟨1, ![32]⟩ : Shape).Idx → EReal) (a : Fin 32) : EReal :=
  (∑ j : Fin 512, clip (blend wa ba s j) * W1 (ix2 a j)) + b1 (ix1 a)

/-- Second dense layer, 32 to 32, on the clamped first layer. -/
def hidden2 (wa ba : Fin 256 → EReal) (s : EReal) (W1 : (⟨2, ![32, 512]⟩ : Shape).Idx → EReal)
    (b1 : (⟨1, ![32]⟩ : Shape).Idx → EReal) (W2 : (⟨2, ![32, 32]⟩ : Shape).Idx → EReal)
    (b2 : (⟨1, ![32]⟩ : Shape).Idx → EReal) (a : Fin 32) : EReal :=
  (∑ j : Fin 32, clip (hidden1 wa ba s W1 b1 j) * W2 (ix2 a j)) + b2 (ix1 a)

/-- The row's score: the clamped second layer dotted with the one output row, plus the output bias. -/
def score (wa ba : Fin 256 → EReal) (s : EReal) (W1 : (⟨2, ![32, 512]⟩ : Shape).Idx → EReal)
    (b1 : (⟨1, ![32]⟩ : Shape).Idx → EReal) (W2 : (⟨2, ![32, 32]⟩ : Shape).Idx → EReal)
    (b2 : (⟨1, ![32]⟩ : Shape).Idx → EReal) (Wo : (⟨2, ![1, 32]⟩ : Shape).Idx → EReal)
    (bo : (⟨1, ![1]⟩ : Shape).Idx → EReal) : EReal :=
  (∑ j : Fin 32, clip (hidden2 wa ba s W1 b1 W2 b2 j) * Wo (ix2 0 j)) + bo (ix1 0)

/-- The whole result array: row `r`'s score from that row's two accumulator vectors and its flag. -/
def net (X0 X1 : (⟨2, ![4096, 41920]⟩ : Shape).Idx → EReal) (Stm : (⟨2, ![4096, 1]⟩ : Shape).Idx → EReal)
    (Ww : (⟨2, ![256, 41920]⟩ : Shape).Idx → EReal) (bw : (⟨1, ![256]⟩ : Shape).Idx → EReal)
    (Wb : (⟨2, ![256, 41920]⟩ : Shape).Idx → EReal) (bb : (⟨1, ![256]⟩ : Shape).Idx → EReal)
    (W1 : (⟨2, ![32, 512]⟩ : Shape).Idx → EReal) (b1 : (⟨1, ![32]⟩ : Shape).Idx → EReal)
    (W2 : (⟨2, ![32, 32]⟩ : Shape).Idx → EReal) (b2 : (⟨1, ![32]⟩ : Shape).Idx → EReal)
    (Wo : (⟨2, ![1, 32]⟩ : Shape).Idx → EReal) (bo : (⟨1, ![1]⟩ : Shape).Idx → EReal) :
    (⟨2, ![4096, 1]⟩ : Shape).Idx → EReal := fun i =>
  score (fun h => accum X0 Ww bw (i 0) h) (fun h => accum X1 Wb bb (i 0) h) (Stm (ix2 (i 0) 0)) W1 b1 W2 b2 Wo bo

/-! ## The tiled, zero-padded sum is the plain sum -/

/-- The accumulator after tile `n`: zero plus tile 0's sum, then each later tile's sum added in order. -/
def chain (S : ℕ → EReal) : ℕ → EReal
  | 0 => zeroE + S 0
  | n + 1 => chain S n + S (n + 1)

theorem chain_eq_sum (S : ℕ → EReal) (n : ℕ) : chain S n = ∑ k ∈ Finset.range (n + 1), S k := by
  induction n with
  | zero => simp [chain, zeroE, Ideal.ofBits_zero_f32]
  | succ n ih => rw [chain, ih]; exact (Finset.sum_range_succ S (n + 1)).symm

/-- `n` whole tiles of 1024 are the first `1024 n` terms. -/
theorem tiles_eq_range (p : ℕ → EReal) (n : ℕ) :
    ∑ k ∈ Finset.range n, ∑ f ∈ Finset.range 1024, p (1024 * k + f) = ∑ g ∈ Finset.range (1024 * n), p g := by
  induction n with
  | zero => simp
  | succ n ih => rw [Finset.sum_range_succ, ih, Nat.mul_succ, Finset.sum_range_add]

/-- The accumulator after the last of 41 tiles of a sequence that vanishes from 41920 on is the sum of its first
    41920 terms. -/
theorem tiles_sum (p : ℕ → EReal) (hp : ∀ g, 41920 ≤ g → p g = 0) :
    chain (fun k => ∑ f : Fin 1024, p (1024 * k + f.val)) 40 = ∑ g : Fin 41920, p g.val := by
  rw [chain_eq_sum]
  have e : ∀ k, (∑ f : Fin 1024, p (1024 * k + f.val)) = ∑ f ∈ Finset.range 1024, p (1024 * k + f) :=
    fun k => (Finset.sum_range (fun f => p (1024 * k + f))).symm
  simp only [e]
  rw [tiles_eq_range p 41, show 1024 * 41 = 41920 + 64 from rfl, Finset.sum_range_add,
    Finset.sum_eq_zero (s := Finset.range 64) (fun x _ => hp (41920 + x) (Nat.le_add_right _ _)), add_zero,
    Finset.sum_range]

end Cert.Spec

end
-- ==== Proof.KPieces.lean ====
/-
  What each control case of the kernel body leaves behind, as values. The body runs in one of three cases: at the
  first feature tile it clears both accumulators and then adds the tile's two products into them; at a middle tile it
  only adds; at the last tile it adds and then evaluates the dense layers on the finished accumulators and stores the
  block's scores. Each accumulator ends a point holding "what it held before, plus this tile's product" (the cleared
  value at the first tile), and at the last tile the output block holds the dense layers applied to the two sums just
  stored. The statements hold for any float instance.
-/
import proofs.«128210_j78331613544881_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-! ## First tile: the accumulators are cleared, then the tile's products are added -/

theorem white_first (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : cond0_0 i) (hc1 : ¬cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = k0_pay3 x0 x2 (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12)]
  unfold kernelRun0_A
  dsimp only
  sl_unfold_words
  rw [View.canon_cons_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

theorem black_first (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : cond0_0 i) (hc1 : ¬cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 = k0_pay4 x1 x3 (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12)]
  unfold kernelRun0_A
  dsimp only
  sl_unfold_words
  rw [View.canon_cons_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

/-! ## Middle tile: the tile's products are added to what the accumulators held -/

theorem white_middle (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : ¬cond0_0 i) (hc1 : ¬cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 xs1 : Vec F S2048x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay3 x0 x2 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_B
  dsimp only
  rw [View.canon_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

theorem black_middle (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : ¬cond0_0 i) (hc1 : ¬cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 xs1 : Vec F S2048x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay4 x1 x3 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_B
  dsimp only
  rw [View.canon_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

/-! ## Last tile: the same additions, then the dense layers on the finished sums -/

theorem white_last (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : ¬cond0_0 i) (hc1 : cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 xs1 : Vec F S2048x256 .f32) :
    sout0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay3 x0 x2 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

theorem black_last (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : ¬cond0_0 i) (hc1 : cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 xs1 : Vec F S2048x256 .f32) :
    sout0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay4 x1 x3 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x256) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

theorem scores_last (c : Dev nD) (i : grid0.Coords) (arg2 : Memref sig .tc .vmem S2048x1024 .f32) (harg2 : arg2.IsWhole) (arg3 : Memref sig .tc .vmem S2048x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S2048x1 .f32) (harg6 : arg6.IsWhole) (arg7 : Memref sig .tc .vmem S1x256 .f32) (harg7 : arg7.IsWhole) (arg8 : Memref sig .tc .vmem S1x256 .f32) (harg8 : arg8.IsWhole) (arg9 : Memref sig .tc .vmem S32x512 .f32) (harg9 : arg9.IsWhole) (arg10 : Memref sig .tc .vmem S1x32 .f32) (harg10 : arg10.IsWhole) (arg11 : Memref sig .tc .vmem S32x32 .f32) (harg11 : arg11.IsWhole) (arg12 : Memref sig .tc .vmem S1x32 .f32) (harg12 : arg12.IsWhole) (arg13 : Memref sig .tc .vmem S1x32 .f32) (harg13 : arg13.IsWhole) (arg14 : Memref sig .tc .vmem S1x1 .f32) (harg14 : arg14.IsWhole) (arg15 : Memref sig .tc .vmem S2048x1 .f32) (harg15 : arg15.IsWhole) (arg16 : Memref sig .tc .vmem S2048x256 .f32) (harg16 : arg16.IsWhole) (arg17 : Memref sig .tc .vmem S2048x256 .f32) (harg17 : arg17.IsWhole)
    (hc0 : ¬cond0_0 i) (hc1 : cond0_1 i) (x0 : Vec F S2048x1024 .f32) (x1 : Vec F S2048x1024 .f32) (x2 : Vec F S256x1024 .f32) (x3 : Vec F S256x1024 .f32) (x4 : Vec F S2048x1 .f32) (x5 : Vec F S1x256 .f32) (x6 : Vec F S1x256 .f32) (x7 : Vec F S32x512 .f32) (x8 : Vec F S1x32 .f32) (x9 : Vec F S32x32 .f32) (x10 : Vec F S1x32 .f32) (x11 : Vec F S1x32 .f32) (x12 : Vec F S1x1 .f32) (xs0 xs1 : Vec F S2048x256 .f32) :
    out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1 = k0_pay5 (k0_pay6 (k0_pay3 x0 x2 xs0) x5 (k0_pay4 x1 x3 xs1) x6 x4 x7 x8) (k0_pay7 x9) (constant S2048x32 .f32 0x00000000#32) x10 x11 x12 := by
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 x11 x12 xs0 xs1)]
  unfold kernelRun0_C
  dsimp only
  sl_unfold_words
  rw [View.canon_unit_zero (S := S2048x1) hz]
  simp only [View.readCov_unit_zero (S := S2048x256) _ hz, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg16.read_unread, harg17.read_unread, View.ld_unit_zero (S := S2048x1024) hz, View.ld_unit_zero (S := S256x1024) hz, View.ld_unit_zero (S := S2048x1) hz, View.ld_unit_zero (S := S1x256) hz, View.ld_unit_zero (S := S32x512) hz, View.ld_unit_zero (S := S1x32) hz, View.ld_unit_zero (S := S32x32) hz, View.ld_unit_zero (S := S1x1) hz, View.ld_unit_zero (S := S2048x256) hz]

end Cert.KernelIdeal.Pieces

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibJoin.lean ====
/-
  Two matrices with the same number of rows joined along the lane axis, read at an index written by its coordinates:
  a lane inside the first matrix's width reads the first matrix at the same place, a later lane reads the second
  matrix at that lane less the first matrix's width. Both are the library's general reading of a two-piece
  concatenation with the coordinates worked out for rank two.
-/
import Idealize.ShloMosaic.Lib.Pipeline.Value
import Idealize.ShloMosaic.Lib.ValueIdx

namespace Cert.LibJoin

open Idealize.ShloMosaic Idealize.ShloMosaic.ValueIdx

variable {α : Type}

/-- Lane `j` of the join, when `j` lies in the first matrix: the first matrix at `(r, j)`. -/
theorem join_left {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₁ : Fin b₁) (hj : j₁.val = j.val) :
    concatenate (⟨2, ![a, c]⟩ : Shape) 1 [⟨(⟨2, ![a, b₁]⟩ : Shape), x₁⟩, ⟨(⟨2, ![a, b₂]⟩ : Shape), x₂⟩] h (ix2 r j)
      = x₁ (ix2 r j₁) :=
  concatenate_pair_apply_left 1 x₁ x₂ h (ix2 r j) rfl (ix2 r j₁) fun d => by
    match d with
    | ⟨0, _⟩ => rfl
    | ⟨1, _⟩ => exact hj

/-- Lane `j` of the join, when `j` lies past the first matrix: the second matrix at `(r, j - b₁)`. -/
theorem join_right {a b₁ b₂ c : ℕ} (x₁ : (⟨2, ![a, b₁]⟩ : Shape).Idx → α) (x₂ : (⟨2, ![a, b₂]⟩ : Shape).Idx → α)
    (h : Shape.Concatenates [(⟨2, ![a, b₁]⟩ : Shape), (⟨2, ![a, b₂]⟩ : Shape)] (⟨2, ![a, c]⟩ : Shape) 1)
    (r : Fin a) (j : Fin c) (j₂ : Fin b₂) (hj : j₂.val + b₁ = j.val) :
    concatenate (⟨2, ![a, c]⟩ : Shape) 1 [⟨(⟨2, ![a, b₁]⟩ : Shape), x₁⟩, ⟨(⟨2, ![a, b₂]⟩ : Shape), x₂⟩] h (ix2 r j)
      = x₂ (ix2 r j₂) :=
  concatenate_pair_apply_right 1 x₁ x₂ h (ix2 r j) rfl rfl (ix2 r j₂)
    (fun d hd => by
      match d with
      | ⟨0, _⟩ => rfl
      | ⟨1, _⟩ => exact absurd rfl hd)
    hj

end Cert.LibJoin
-- ==== Proof.KMatmul.lean ====
/-
  The kernel's three matrix products into a zero accumulator, read at an output index written by its coordinates, over
  the extended reals: each is the plain sum, over the contracted axis, of the products of the two operands' entries.
  The tile product contracts the lane axis of both operands (a block of feature rows against a block of weight rows);
  the two dense layers contract the lanes of the left operand with the rows of the right.
-/
import proofs.«128210_j78331613544881_2_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

theorem lhs_tile_row (i : S2048x256.Idx) (q : dot_S2048x1024_S256x1024_S2048x256_1_1_0_0_n_n.contr.Idx) : (dot_S2048x1024_S256x1024_S2048x256_1_1_0_0_n_n.lhsIdx i q 0).val = (i 0).val := by
  unfold DotDims.lhsIdx
  rw [dif_neg (show ¬(0 : Fin S2048x1024.rank) ∈ dot_S2048x1024_S256x1024_S2048x256_1_1_0_0_n_n.lhsBatch by decide), dif_pos (show (0 : Fin S2048x1024.rank) ∈ dot_S2048x1024_S256x1024_S2048x256_1_1_0_0_n_n.lhsNonContracting by decide)]
  rfl
theorem lhs_tile_contr (i : S2048x256.Idx) (q : dot_S2048x1024_S256x1024_S2048x256_1_1_0_0_n_n.contr.Idx) : (dot_S2048x1024_S256x1024_S2048x256_1_1_0_0_n_n.lhsIdx i q 1).val = (q ⟨0, by decide⟩).val :=
  dot_S2048x1024_S256x1024_S2048x256_1_1_0_0_n_n.lhsIdx_val_of_single rfl i q
theorem rhs_tile_contr (i : S2048x256.Idx) (q : dot_S2048x1024_S256x1024_S2048x256_1_1_0_0_n_n.contr.Idx) : (dot_S2048x1024_S256x1024_S2048x256_1_1_0_0_n_n.rhsIdx i q 1).val = (q ⟨0, by decide⟩).val :=
  dot_S2048x1024_S256x1024_S2048x256_1_1_0_0_n_n.rhsIdx_val_of_single rfl i q
theorem rhs_tile_free (i : S2048x256.Idx) (q : dot_S2048x1024_S256x1024_S2048x256_1_1_0_0_n_n.contr.Idx) : (dot_S2048x1024_S256x1024_S2048x256_1_1_0_0_n_n.rhsIdx i q 0).val = (i 1).val := by
  unfold DotDims.rhsIdx
  rw [dif_neg (show ¬(0 : Fin S256x1024.rank) ∈ dot_S2048x1024_S256x1024_S2048x256_1_1_0_0_n_n.rhsBatch by decide), dif_pos (show (0 : Fin S256x1024.rank) ∈ dot_S2048x1024_S256x1024_S2048x256_1_1_0_0_n_n.rhsNonContracting by decide)]
  rfl

/-- A block of 2048 feature rows against a block of 256 weight rows, both 1024 lanes wide: entry (p, h) is the sum over the lanes of row p times row h. -/
theorem tile_apply {φ₁ φ₂ : FTy} (l : FVec Ideal S2048x1024 φ₁) (r : FVec Ideal S256x1024 φ₂) (p : Fin 2048) (h : Fin 256) :
    matmul dot_S2048x1024_S256x1024_S2048x256_1_1_0_0_n_n none l r (constant (F := Ideal) S2048x256 .f32 0x00000000#32) (ix2 p h)
      = ∑ k : Fin 1024, l (ix2 p k) * r (ix2 h k) := by
  simp only [matmul]
  rw [Ideal.matmul_constant_zero_apply, ← Equiv.sum_comp (ValueIdx.contrEquiv1 dot_S2048x1024_S256x1024_S2048x256_1_1_0_0_n_n 1024 rfl rfl).symm]
  refine Finset.sum_congr rfl fun k _ => ?_
  have hk := ValueIdx.contrEquiv1_symm_val dot_S2048x1024_S256x1024_S2048x256_1_1_0_0_n_n 1024 rfl rfl k
  have el : dot_S2048x1024_S256x1024_S2048x256_1_1_0_0_n_n.lhsIdx (ix2 p h) ((ValueIdx.contrEquiv1 dot_S2048x1024_S256x1024_S2048x256_1_1_0_0_n_n 1024 rfl rfl).symm k) = ix2 p k := funext fun a => Fin.ext (by
    match a with
    | ⟨0, _⟩ => exact lhs_tile_row _ _
    | ⟨1, _⟩ => exact (lhs_tile_contr _ _).trans hk)
  have er : dot_S2048x1024_S256x1024_S2048x256_1_1_0_0_n_n.rhsIdx (ix2 p h) ((ValueIdx.contrEquiv1 dot_S2048x1024_S256x1024_S2048x256_1_1_0_0_n_n 1024 rfl rfl).symm k) = ix2 h k := funext fun a => Fin.ext (by
    match a with
    | ⟨0, _⟩ => exact rhs_tile_free _ _
    | ⟨1, _⟩ => exact (rhs_tile_contr _ _).trans hk)
  rw [el, er]

theorem lhs_dense1_row (i : S2048x32.Idx) (q : dot_S2048x512_S512x32_S2048x32_1_0_0_1_n_n.contr.Idx) : (dot_S2048x512_S512x32_S2048x32_1_0_0_1_n_n.lhsIdx i q 0).val = (i 0).val := by
  unfold DotDims.lhsIdx
  rw [dif_neg (show ¬(0 : Fin S2048x512.rank) ∈ dot_S2048x512_S512x32_S2048x32_1_0_0_1_n_n.lhsBatch by decide), dif_pos (show (0 : Fin S2048x512.rank) ∈ dot_S2048x512_S512x32_S2048x32_1_0_0_1_n_n.lhsNonContracting by decide)]
  rfl
theorem lhs_dense1_contr (i : S2048x32.Idx) (q : dot_S2048x512_S512x32_S2048x32_1_0_0_1_n_n.contr.Idx) : (dot_S2048x512_S512x32_S2048x32_1_0_0_1_n_n.lhsIdx i q 1).val = (q ⟨0, by decide⟩).val :=
  dot_S2048x512_S512x32_S2048x32_1_0_0_1_n_n.lhsIdx_val_of_single rfl i q
theorem rhs_dense1_contr (i : S2048x32.Idx) (q : dot_S2048x512_S512x32_S2048x32_1_0_0_1_n_n.contr.Idx) : (dot_S2048x512_S512x32_S2048x32_1_0_0_1_n_n.rhsIdx i q 0).val = (q ⟨0, by decide⟩).val :=
  dot_S2048x512_S512x32_S2048x32_1_0_0_1_n_n.rhsIdx_val_of_single rfl i q
theorem rhs_dense1_free (i : S2048x32.Idx) (q : dot_S2048x512_S512x32_S2048x32_1_0_0_1_n_n.contr.Idx) : (dot_S2048x512_S512x32_S2048x32_1_0_0_1_n_n.rhsIdx i q 1).val = (i 1).val := by
  unfold DotDims.rhsIdx
  rw [dif_neg (show ¬(1 : Fin S512x32.rank) ∈ dot_S2048x512_S512x32_S2048x32_1_0_0_1_n_n.rhsBatch by decide), dif_pos (show (1 : Fin S512x32.rank) ∈ dot_S2048x512_S512x32_S2048x32_1_0_0_1_n_n.rhsNonContracting by decide)]
  rfl

/-- The first dense layer's product: entry (p, h) is the sum over the 512 lanes of row p of the left operand times column h of the right. -/
theorem dense1_apply {φ₁ φ₂ : FTy} (l : FVec Ideal S2048x512 φ₁) (r : FVec Ideal S512x32 φ₂) (p : Fin 2048) (h : Fin 32) :
    matmul dot_S2048x512_S512x32_S2048x32_1_0_0_1_n_n none l r (constant (F := Ideal) S2048x32 .f32 0x00000000#32) (ix2 p h)
      = ∑ k : Fin 512, l (ix2 p k) * r (ix2 k h) := by
  simp only [matmul]
  rw [Ideal.matmul_constant_zero_apply, ← Equiv.sum_comp (ValueIdx.contrEquiv1 dot_S2048x512_S512x32_S2048x32_1_0_0_1_n_n 512 rfl rfl).symm]
  refine Finset.sum_congr rfl fun k _ => ?_
  have hk := ValueIdx.contrEquiv1_symm_val dot_S2048x512_S512x32_S2048x32_1_0_0_1_n_n 512 rfl rfl k
  have el : dot_S2048x512_S512x32_S2048x32_1_0_0_1_n_n.lhsIdx (ix2 p h) ((ValueIdx.contrEquiv1 dot_S2048x512_S512x32_S2048x32_1_0_0_1_n_n 512 rfl rfl).symm k) = ix2 p k := funext fun a => Fin.ext (by
    match a with
    | ⟨0, _⟩ => exact lhs_dense1_row _ _
    | ⟨1, _⟩ => exact (lhs_dense1_contr _ _).trans hk)
  have er : dot_S2048x512_S512x32_S2048x32_1_0_0_1_n_n.rhsIdx (ix2 p h) ((ValueIdx.contrEquiv1 dot_S2048x512_S512x32_S2048x32_1_0_0_1_n_n 512 rfl rfl).symm k) = ix2 k h := funext fun a => Fin.ext (by
    match a with
    | ⟨0, _⟩ => exact (rhs_dense1_contr _ _).trans hk
    | ⟨1, _⟩ => exact rhs_dense1_free _ _)
  rw [el, er]

theorem lhs_dense2_row (i : S2048x32.Idx) (q : dot_S2048x32_S32x32_S2048x32_1_0_0_1_n_n.contr.Idx) : (dot_S2048x32_S32x32_S2048x32_1_0_0_1_n_n.lhsIdx i q 0).val = (i 0).val := by
  unfold DotDims.lhsIdx
  rw [dif_neg (show ¬(0 : Fin S2048x32.rank) ∈ dot_S2048x32_S32x32_S2048x32_1_0_0_1_n_n.lhsBatch by decide), dif_pos (show (0 : Fin S2048x32.rank) ∈ dot_S2048x32_S32x32_S2048x32_1_0_0_1_n_n.lhsNonContracting by decide)]
  rfl
theorem lhs_dense2_contr (i : S2048x32.Idx) (q : dot_S2048x32_S32x32_S2048x32_1_0_0_1_n_n.contr.Idx) : (dot_S2048x32_S32x32_S2048x32_1_0_0_1_n_n.lhsIdx i q 1).val = (q ⟨0, by decide⟩).val :=
  dot_S2048x32_S32x32_S2048x32_1_0_0_1_n_n.lhsIdx_val_of_single rfl i q
theorem rhs_dense2_contr (i : S2048x32.Idx) (q : dot_S2048x32_S32x32_S2048x32_1_0_0_1_n_n.contr.Idx) : (dot_S2048x32_S32x32_S2048x32_1_0_0_1_n_n.rhsIdx i q 0).val = (q ⟨0, by decide⟩).val :=
  dot_S2048x32_S32x32_S2048x32_1_0_0_1_n_n.rhsIdx_val_of_single rfl i q
theorem rhs_dense2_free (i : S2048x32.Idx) (q : dot_S2048x32_S32x32_S2048x32_1_0_0_1_n_n.contr.Idx) : (dot_S2048x32_S32x32_S2048x32_1_0_0_1_n_n.rhsIdx i q 1).val = (i 1).val := by
  unfold DotDims.rhsIdx
  rw [dif_neg (show ¬(1 : Fin S32x32.rank) ∈ dot_S2048x32_S32x32_S2048x32_1_0_0_1_n_n.rhsBatch by decide), dif_pos (show (1 : Fin S32x32.rank) ∈ dot_S2048x32_S32x32_S2048x32_1_0_0_1_n_n.rhsNonContracting by decide)]
  rfl

/-- The second dense layer's product: entry (p, h) is the sum over the 32 lanes of row p of the left operand times column h of the right. -/
theorem dense2_apply {φ₁ φ₂ : FTy} (l : FVec Ideal S2048x32 φ₁) (r : FVec Ideal S32x32 φ₂) (p : Fin 2048) (h : Fin 32) :
    matmul dot_S2048x32_S32x32_S2048x32_1_0_0_1_n_n none l r (constant (F := Ideal) S2048x32 .f32 0x00000000#32) (ix2 p h)
      = ∑ k : Fin 32, l (ix2 p k) * r (ix2 k h) := by
  simp only [matmul]
  rw [Ideal.matmul_constant_zero_apply, ← Equiv.sum_comp (ValueIdx.contrEquiv1 dot_S2048x32_S32x32_S2048x32_1_0_0_1_n_n 32 rfl rfl).symm]
  refine Finset.sum_congr rfl fun k _ => ?_
  have hk := ValueIdx.contrEquiv1_symm_val dot_S2048x32_S32x32_S2048x32_1_0_0_1_n_n 32 rfl rfl k
  have el : dot_S2048x32_S32x32_S2048x32_1_0_0_1_n_n.lhsIdx (ix2 p h) ((ValueIdx.contrEquiv1 dot_S2048x32_S32x32_S2048x32_1_0_0_1_n_n 32 rfl rfl).symm k) = ix2 p k := funext fun a => Fin.ext (by
    match a with
    | ⟨0, _⟩ => exact lhs_dense2_row _ _
    | ⟨1, _⟩ => exact (lhs_dense2_contr _ _).trans hk)
  have er : dot_S2048x32_S32x32_S2048x32_1_0_0_1_n_n.rhsIdx (ix2 p h) ((ValueIdx.contrEquiv1 dot_S2048x32_S32x32_S2048x32_1_0_0_1_n_n 32 rfl rfl).symm k) = ix2 k h := funext fun a => Fin.ext (by
    match a with
    | ⟨0, _⟩ => exact (rhs_dense2_contr _ _).trans hk
    | ⟨1, _⟩ => exact rhs_dense2_free _ _)
  rw [el, er]

end Cert.KernelIdeal.Products

end
-- ==== Proof.KPayloads.lean ====
/-
  The kernel body's arithmetic read at an index, over the extended reals.

  The body's values are named here one by one: an accumulator with its bias row added, the blend of the two biased
  accumulators by the side-to-move column, the clamp to [0, 1], the two dense layers (a product with a transposed
  weight matrix plus a bias row), and the output (the clamped second layer times the one output row, summed along the
  lanes, plus the output bias). Each printed store value is one of these compositions, by unfolding alone. Read at a
  row p, each named value is the specification's function of row p's data, so the stored scores of a block are the
  specification's score of each of its rows; and an accumulator after a tile is what it held plus the tile's product.
-/
import proofs.«128210_j78331613544881_2_alg».proof.Proof.Spec
import proofs.«128210_j78331613544881_2_alg».proof.Proof.LibLayout
import proofs.«128210_j78331613544881_2_alg».proof.Proof.LibJoin
import proofs.«128210_j78331613544881_2_alg».proof.Proof.KMatmul
import proofs.«128210_j78331613544881_2_alg».proof.Proof.Gen.KernelIdeal.Skeleton
import Idealize.ShloMosaic.Lib.ValueLayout
import Idealize.ShloMosaic.Lib.Pipeline.Value
import Idealize.ShloMosaic.PureOps.Ideal.Laws

set_option maxRecDepth 16384

noncomputable section

namespace Cert.KernelIdeal.Payloads

open Cert.KernelIdeal Cert.KernelIdeal.Gen Idealize.ShloMosaic Idealize.ShloMosaic.ValueIdx

/-! ## The accumulators -/

/-- A cleared accumulator holds the zero word everywhere. -/
theorem cleared_white (j : S2048x256.Idx) : k0_pay1 (F := Ideal) j = Cert.Spec.zeroE := by
  simp only [k0_pay1, shapeCast_self]; rfl

theorem cleared_black (j : S2048x256.Idx) : k0_pay2 (F := Ideal) j = Cert.Spec.zeroE := by
  simp only [k0_pay2, shapeCast_self]; rfl

/-- After a tile the white accumulator holds, at (p, h), what it held plus the sum over the tile's 1024 lanes of
    feature row p times weight row h (the change of float format of both operands is the identity here). -/
theorem white_add_tile (v3 : Vec Ideal S2048x1024 .f32) (v9 : Vec Ideal S256x1024 .f32) (v17 : Vec Ideal S2048x256 .f32)
    (p : Fin 2048) (h : Fin 256) :
    k0_pay3 (F := Ideal) v3 v9 v17 (ix2 p h) = v17 (ix2 p h) + ∑ k : Fin 1024, v3 (ix2 p k) * v9 (ix2 h k) := by
  simp only [k0_pay3, shapeCast_self]
  rw [addf_apply, Products.tile_apply]
  rfl

theorem black_add_tile (v6 : Vec Ideal S2048x1024 .f32) (v12 : Vec Ideal S256x1024 .f32) (v22 : Vec Ideal S2048x256 .f32)
    (p : Fin 2048) (h : Fin 256) :
    k0_pay4 (F := Ideal) v6 v12 v22 (ix2 p h) = v22 (ix2 p h) + ∑ k : Fin 1024, v6 (ix2 p k) * v12 (ix2 h k) := by
  simp only [k0_pay4, shapeCast_self]
  rw [addf_apply, Products.tile_apply]
  rfl

/-! ## The body's values after the last tile, named -/

/-- An accumulator with its bias row added to every row. -/
def biased (acc : FVec Ideal S2048x256 .f32) (b : FVec Ideal S1x256 .f32) : FVec Ideal S2048x256 .f32 :=
  addf acc (broadcastTo S2048x256 (shapeCast S1x256 b shapeCasts_S1x256_S1x256) broadcasts_S1x256_S2048x256)

/-- (1 - s) times (wa, ba) side by side plus s times (ba, wa) side by side, s the side-to-move column. -/
def blended (wa ba : FVec Ideal S2048x256 .f32) (s : FVec Ideal S2048x1 .f32) : FVec Ideal S2048x512 .f32 :=
  addf
    (mulf (broadcastTo S2048x512 (subf (broadcast S2048x1 (Scalar.ofBits (F := Ideal) .f32 0x3F800000#32)) s) broadcasts_S2048x1_S2048x512)
      (concatenate S2048x512 1 [⟨S2048x256, wa⟩, ⟨S2048x256, ba⟩] concatenates_S2048x256_S2048x256_S2048x512_d1))
    (mulf (broadcastTo S2048x512 s broadcasts_S2048x1_S2048x512)
      (concatenate S2048x512 1 [⟨S2048x256, ba⟩, ⟨S2048x256, wa⟩] concatenates_S2048x256_S2048x256_S2048x512_d1))

/-- The clamp to [0, 1], entry by entry. -/
def clamped {S : Shape} (x : FVec Ideal S .f32) : FVec Ideal S .f32 :=
  minimumf (broadcast S (Scalar.ofBits (F := Ideal) .f32 0x3F800000#32))
    (maximumf (broadcast S (Scalar.ofBits (F := Ideal) .f32 0x00000000#32)) x)

/-- The first dense layer: the product with the transposed 32 x 512 weights, plus the bias row. -/
def dense1 (x : FVec Ideal S2048x512 .f32) (W : FVec Ideal S32x512 .f32) (b : FVec Ideal S1x32 .f32) : FVec Ideal S2048x32 .f32 :=
  addf (matmul dot_S2048x512_S512x32_S2048x32_1_0_0_1_n_n none x (transpose S512x32 [1, 0] W transposes_S32x512_p1_0_S512x32)
      (constant (F := Ideal) S2048x32 .f32 0x00000000#32))
    (broadcastTo S2048x32 (shapeCast S1x32 b shapeCasts_S1x32_S1x32) broadcasts_S1x32_S2048x32)

/-- The second dense layer: the product with the transposed 32 x 32 weights, plus the bias row. -/
def dense2 (x : FVec Ideal S2048x32 .f32) (Wt : FVec Ideal S32x32 .f32) (b : FVec Ideal S1x32 .f32) : FVec Ideal S2048x32 .f32 :=
  addf (matmul dot_S2048x32_S32x32_S2048x32_1_0_0_1_n_n none x Wt (constant (F := Ideal) S2048x32 .f32 0x00000000#32))
    (broadcastTo S2048x32 (shapeCast S1x32 b shapeCasts_S1x32_S1x32) broadcasts_S1x32_S2048x32)

/-- The output column: each row times the one output row, summed along the lanes, plus the output bias. -/
def scored (x : FVec Ideal S2048x32 .f32) (Wo : FVec Ideal S1x32 .f32) (bo : FVec Ideal S1x1 .f32) : FVec Ideal S2048x1 .f32 :=
  addf
    (shapeCast S2048x1 (multiReduction .add [1] S2048 (mulf x (broadcastTo S2048x32 Wo broadcasts_S1x32_S2048x32)) 0x00000000#32
      reduces_S2048x32_S2048 (.inl rfl) rfl) shapeCasts_S2048_S2048x1)
    (broadcastTo S2048x1 (shapeCast S1x1 bo shapeCasts_S1x1_S1x1) broadcasts_S1x1_S2048x1)

/-- The clamped first layer, as the body computes it from the finished accumulators. -/
theorem first_layer_eq (v30 : Vec Ideal S2048x256 .f32) (v31 : Vec Ideal S1x256 .f32) (v35 : Vec Ideal S2048x256 .f32)
    (v36 : Vec Ideal S1x256 .f32) (v40 : Vec Ideal S2048x1 .f32) (v54 : Vec Ideal S32x512 .f32) (v57 : Vec Ideal S1x32 .f32) :
    k0_pay6 (F := Ideal) v30 v31 v35 v36 v40 v54 v57
      = clamped (dense1 (clamped (blended (biased v30 v31) (biased v35 v36) v40)) v54 v57) := rfl

/-- The stored scores, as the body computes them from the clamped first layer. -/
theorem scores_eq (v64 : FVec Ideal S2048x32 .f32) (v65 : Vec Ideal S32x32 .f32) (v68 v76 : Vec Ideal S1x32 .f32)
    (v81 : Vec Ideal S1x1 .f32) :
    k0_pay5 (F := Ideal) v64 (k0_pay7 v65) (constant (F := Ideal) S2048x32 .f32 0x00000000#32) v68 v76 v81
      = scored (clamped (dense2 v64 (transpose S32x32 [1, 0] v65 transposes_S32x32_p1_0_S32x32) v68)) v76 v81 := rfl

/-! ## Each named value at a row -/

theorem biased_apply (acc : FVec Ideal S2048x256 .f32) (b : FVec Ideal S1x256 .f32) (p : Fin 2048) (h : Fin 256) :
    biased acc b (ix2 p h) = acc (ix2 p h) + b (ix2 (0 : Fin 1) h) := by
  unfold biased
  rw [shapeCast_self, addf_apply, broadcastTo_1b_ab_apply]

theorem clamped_apply {S : Shape} (x : FVec Ideal S .f32) (i : S.Idx) : clamped x i = Cert.Spec.clip (x i) := rfl

theorem blended_apply (wa ba : FVec Ideal S2048x256 .f32) (s : FVec Ideal S2048x1 .f32) (p : Fin 2048) (j : Fin 512) :
    blended wa ba s (ix2 p j)
      = Cert.Spec.blend (fun h => wa (ix2 p h)) (fun h => ba (ix2 p h)) (s (ix2 p (0 : Fin 1))) j := by
  unfold blended Cert.Spec.blend Cert.Spec.sideBySide
  rw [addf_apply, mulf_apply, mulf_apply, Cert.LibLayout.broadcastTo_a1_ab_apply, Cert.LibLayout.broadcastTo_a1_ab_apply,
    subf_apply, broadcast_apply]
  by_cases hj : j.val < 256
  · rw [dif_pos hj, dif_pos hj, Cert.LibJoin.join_left wa ba _ p j ⟨j.val, hj⟩ rfl,
      Cert.LibJoin.join_left ba wa _ p j ⟨j.val, hj⟩ rfl]
    rfl
  · have hj' : j.val - 256 < 256 := by have := j.isLt; omega
    have e : (⟨j.val - 256, hj'⟩ : Fin 256).val + 256 = j.val := by show j.val - 256 + 256 = j.val; omega
    rw [dif_neg hj, dif_neg hj, Cert.LibJoin.join_right wa ba _ p j ⟨j.val - 256, hj'⟩ e,
      Cert.LibJoin.join_right ba wa _ p j ⟨j.val - 256, hj'⟩ e]
    rfl

theorem dense1_apply (x : FVec Ideal S2048x512 .f32) (W : FVec Ideal S32x512 .f32) (b : FVec Ideal S1x32 .f32)
    (p : Fin 2048) (a : Fin 32) :
    dense1 x W b (ix2 p a) = (∑ j : Fin 512, x (ix2 p j) * W (ix2 a j)) + b (ix2 (0 : Fin 1) a) := by
  unfold dense1
  rw [shapeCast_self, addf_apply, Products.dense1_apply, broadcastTo_1b_ab_apply]
  refine congrArg (· + b (ix2 (0 : Fin 1) a)) (Finset.sum_congr rfl fun j _ => ?_)
  exact congrArg (x (ix2 p j) * ·) (transpose_ix2_apply W transposes_S32x512_p1_0_S512x32 j a)

theorem dense2_apply (x : FVec Ideal S2048x32 .f32) (W : FVec Ideal S32x32 .f32) (b : FVec Ideal S1x32 .f32)
    (p : Fin 2048) (a : Fin 32) :
    dense2 x (transpose S32x32 [1, 0] W transposes_S32x32_p1_0_S32x32) b (ix2 p a)
      = (∑ j : Fin 32, x (ix2 p j) * W (ix2 a j)) + b (ix2 (0 : Fin 1) a) := by
  unfold dense2
  rw [shapeCast_self, addf_apply, Products.dense2_apply, broadcastTo_1b_ab_apply]
  refine congrArg (· + b (ix2 (0 : Fin 1) a)) (Finset.sum_congr rfl fun j _ => ?_)
  exact congrArg (x (ix2 p j) * ·) (transpose_ix2_apply W transposes_S32x32_p1_0_S32x32 j a)

/-- The lane sum of a 2048 x 32 tile at row p. -/
theorem lane_sum_apply (y : FVec Ideal S2048x32 .f32) (hacc : (0x00000000#32 : BitVec 32) = 0x00000000#32) (p : Fin 2048) :
    multiReduction .add [1] S2048 y 0x00000000#32 reduces_S2048x32_S2048 (.inl rfl) hacc (ix1 p)
      = ∑ k : Fin 32, y (ix2 p k) := by
  refine (Ideal.multiReduction_add_single y 0x00000000#32 reduces_S2048x32_S2048 (.inl rfl) hacc (ix1 p)).trans ?_
  refine Finset.sum_congr rfl fun k _ => congrArg y (funext fun d => ?_)
  match d with
  | ⟨0, _⟩ => rfl
  | ⟨1, _⟩ => rfl

theorem scored_apply (x : FVec Ideal S2048x32 .f32) (Wo : FVec Ideal S1x32 .f32) (bo : FVec Ideal S1x1 .f32) (p : Fin 2048) :
    scored x Wo bo (ix2 p (0 : Fin 1))
      = (∑ j : Fin 32, x (ix2 p j) * Wo (ix2 (0 : Fin 1) j)) + bo (ix2 (0 : Fin 1) (0 : Fin 1)) := by
  unfold scored
  rw [shapeCast_self, addf_apply, Cert.LibLayout.shapeCast_a_a1_apply, lane_sum_apply, broadcastTo_1b_ab_apply]
  simp only [mulf_apply, broadcastTo_1b_ab_apply]

/-! ## The stored scores of a block are the specification's score of each row -/

/-- At the last tile the output block holds, at row p, the score of: the two finished accumulators' rows p with the
    bias rows added, the flag at row p, and the dense layers' weights and biases as the blocks hold them. -/
theorem scores_apply (a5 a6 : Vec Ideal S2048x256 .f32) (x4 : Vec Ideal S2048x1 .f32) (x5 x6 : Vec Ideal S1x256 .f32)
    (x7 : Vec Ideal S32x512 .f32) (x8 : Vec Ideal S1x32 .f32) (x9 : Vec Ideal S32x32 .f32) (x10 x11 : Vec Ideal S1x32 .f32)
    (x12 : Vec Ideal S1x1 .f32) (p : Fin 2048) :
    k0_pay5 (F := Ideal) (k0_pay6 a5 x5 a6 x6 x4 x7 x8) (k0_pay7 x9) (constant (F := Ideal) S2048x32 .f32 0x00000000#32) x10 x11 x12
        (ix2 p (0 : Fin 1))
      = Cert.Spec.score (fun h => a5 (ix2 p h) + x5 (ix2 (0 : Fin 1) h)) (fun h => a6 (ix2 p h) + x6 (ix2 (0 : Fin 1) h))
          (x4 (ix2 p (0 : Fin 1))) x7 (fun i => x8 (ix2 (0 : Fin 1) (i 0))) x9 (fun i => x10 (ix2 (0 : Fin 1) (i 0))) x11
          (fun i => x12 (ix2 (0 : Fin 1) (i 0))) := by
  rw [scores_eq, first_layer_eq, scored_apply]
  unfold Cert.Spec.score
  refine congrArg₂ (· + ·) (Finset.sum_congr rfl fun j _ => ?_) rfl
  rw [clamped_apply, dense2_apply]
  unfold Cert.Spec.hidden2
  refine congrArg (· * x11 (ix2 (0 : Fin 1) j))
    (congrArg Cert.Spec.clip (congrArg₂ (· + ·) (Finset.sum_congr rfl fun i _ => ?_) rfl))
  rw [clamped_apply, dense1_apply]
  unfold Cert.Spec.hidden1
  refine congrArg (· * x9 (ix2 j i))
    (congrArg Cert.Spec.clip (congrArg₂ (· + ·) (Finset.sum_congr rfl fun l _ => ?_) rfl))
  rw [clamped_apply, blended_apply]
  refine congrArg (· * x7 (ix2 i l)) (congrArg Cert.Spec.clip ?_)
  simp only [biased_apply]

end Cert.KernelIdeal.Payloads

end
-- ==== Proof.KPoints.lean ====
/-
  What the accumulators and the output block hold after one grid point, in terms of that point's blocks, over the
  extended reals. At a first tile (t % 41 = 0) an accumulator entry is the zero word plus the tile's sum of products; at
  any later tile it is what the point before left there plus the tile's sum; at a last tile (t % 41 = 40) the output
  block's row p is the specification's score of the two accumulators' rows p as they stand after this point, with the
  bias rows added, the flag of row p, and the dense layers' blocks.
-/
import proofs.«128210_j78331613544881_2_alg».proof.Proof.KPieces
import proofs.«128210_j78331613544881_2_alg».proof.Proof.KPayloads
import proofs.«128210_j78331613544881_2_alg».proof.Proof.Gen.KernelIdeal.Frame

set_option maxRecDepth 16384

noncomputable section

namespace Cert.KernelIdeal.Points

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The tile's contribution to the white accumulator at (p, h): feature block row p times weight block row h. -/
def whiteTile (c : Dev nD) (t : Fin cfg0.N) (p : Fin 2048) (h : Fin 256) : EReal :=
  let x : S2048x1024.Idx → EReal := iblk m c 0 t
  let w : S256x1024.Idx → EReal := iblk m c 2 t
  ∑ k : Fin 1024, x (ix2 p k) * w (ix2 h k)

/-- The tile's contribution to the black accumulator at (p, h). -/
def blackTile (c : Dev nD) (t : Fin cfg0.N) (p : Fin 2048) (h : Fin 256) : EReal :=
  let x : S2048x1024.Idx → EReal := iblk m c 1 t
  let w : S256x1024.Idx → EReal := iblk m c 3 t
  ∑ k : Fin 1024, x (ix2 p k) * w (ix2 h k)

/-! ## The accumulators after a point -/

theorem white_first (c : Dev nD) (t : Fin cfg0.N) (h0 : t.val % 41 = 0) (h1 : ¬t.val % 41 = 40) (p : Fin 2048) (h : Fin 256) :
    ((outsAt0 m c t.val t.isLt).2.1 : S2048x256.Idx → Ideal .f32) (ix2 p h) = Cert.Spec.zeroE + whiteTile m c t p h := by
  rw [outsAt0_A m c t h0 h1]
  dsimp only
  refine (congrFun (Pieces.white_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 p h)).trans ?_
  refine (Payloads.white_add_tile (iblk m c 0 t) (iblk m c 2 t) (k0_pay1 (F := Ideal)) p h).trans ?_
  rw [Payloads.cleared_white]
  rfl

theorem black_first (c : Dev nD) (t : Fin cfg0.N) (h0 : t.val % 41 = 0) (h1 : ¬t.val % 41 = 40) (p : Fin 2048) (h : Fin 256) :
    ((outsAt0 m c t.val t.isLt).2.2 : S2048x256.Idx → Ideal .f32) (ix2 p h) = Cert.Spec.zeroE + blackTile m c t p h := by
  rw [outsAt0_A m c t h0 h1]
  dsimp only
  refine (congrFun (Pieces.black_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 p h)).trans ?_
  refine (Payloads.black_add_tile (iblk m c 1 t) (iblk m c 3 t) (k0_pay2 (F := Ideal)) p h).trans ?_
  rw [Payloads.cleared_black]
  rfl

theorem white_later (c : Dev nD) (t : Fin cfg0.N) (h0 : ¬t.val % 41 = 0) (p : Fin 2048) (h : Fin 256) :
    ((outsAt0 m c t.val t.isLt).2.1 : S2048x256.Idx → Ideal .f32) (ix2 p h)
      = ((outsAt0 m c (t.val - 1) (Nat.lt_of_le_of_lt (Nat.sub_le _ _) t.isLt)).2.1 : S2048x256.Idx → Ideal .f32) (ix2 p h) + whiteTile m c t p h := by
  by_cases h1 : t.val % 41 = 40
  · rw [outsAt0_C m c t h0 h1]
    dsimp only
    refine (congrFun (Pieces.white_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2) (ix2 p h)).trans ?_
    exact Payloads.white_add_tile (iblk m c 0 t) (iblk m c 2 t) (outsAt0 m c (t.val - 1) (Nat.lt_of_le_of_lt (Nat.sub_le _ _) t.isLt)).2.1 p h
  · rw [outsAt0_B m c t h0 h1]
    dsimp only
    refine (congrFun (Pieces.white_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2) (ix2 p h)).trans ?_
    exact Payloads.white_add_tile (iblk m c 0 t) (iblk m c 2 t) (outsAt0 m c (t.val - 1) (Nat.lt_of_le_of_lt (Nat.sub_le _ _) t.isLt)).2.1 p h

theorem black_later (c : Dev nD) (t : Fin cfg0.N) (h0 : ¬t.val % 41 = 0) (p : Fin 2048) (h : Fin 256) :
    ((outsAt0 m c t.val t.isLt).2.2 : S2048x256.Idx → Ideal .f32) (ix2 p h)
      = ((outsAt0 m c (t.val - 1) (Nat.lt_of_le_of_lt (Nat.sub_le _ _) t.isLt)).2.2 : S2048x256.Idx → Ideal .f32) (ix2 p h) + blackTile m c t p h := by
  by_cases h1 : t.val % 41 = 40
  · rw [outsAt0_C m c t h0 h1]
    dsimp only
    refine (congrFun (Pieces.black_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2) (ix2 p h)).trans ?_
    exact Payloads.black_add_tile (iblk m c 1 t) (iblk m c 3 t) (outsAt0 m c (t.val - 1) (Nat.lt_of_le_of_lt (Nat.sub_le _ _) t.isLt)).2.2 p h
  · rw [outsAt0_B m c t h0 h1]
    dsimp only
    refine (congrFun (Pieces.black_middle (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2) (ix2 p h)).trans ?_
    exact Payloads.black_add_tile (iblk m c 1 t) (iblk m c 3 t) (outsAt0 m c (t.val - 1) (Nat.lt_of_le_of_lt (Nat.sub_le _ _) t.isLt)).2.2 p h

/-! ## The output block after a last tile -/

/-- Row p of the output block at a last tile: the score of the accumulators as this point leaves them. -/
theorem scores_last (c : Dev nD) (t : Fin cfg0.N) (h0 : ¬t.val % 41 = 0) (h1 : t.val % 41 = 40) (p : Fin 2048) :
    ((outsAt0 m c t.val t.isLt).1 : S2048x1.Idx → Ideal .f32) (ix2 p (0 : Fin 1))
      = Cert.Spec.score
          (fun h => ((outsAt0 m c t.val t.isLt).2.1 : S2048x256.Idx → Ideal .f32) (ix2 p h) + (iblk m c 5 t : S1x256.Idx → Ideal .f32) (ix2 (0 : Fin 1) h))
          (fun h => ((outsAt0 m c t.val t.isLt).2.2 : S2048x256.Idx → Ideal .f32) (ix2 p h) + (iblk m c 6 t : S1x256.Idx → Ideal .f32) (ix2 (0 : Fin 1) h))
          ((iblk m c 4 t : S2048x1.Idx → Ideal .f32) (ix2 p (0 : Fin 1)))
          (iblk m c 7 t) (fun i => (iblk m c 8 t : S1x32.Idx → Ideal .f32) (ix2 (0 : Fin 1) (i 0)))
          (iblk m c 9 t) (fun i => (iblk m c 10 t : S1x32.Idx → Ideal .f32) (ix2 (0 : Fin 1) (i 0)))
          (iblk m c 11 t) (fun i => (iblk m c 12 t : S1x1.Idx → Ideal .f32) (ix2 (0 : Fin 1) (i 0))) := by
  rw [outsAt0_C m c t h0 h1]
  dsimp only
  rw [Pieces.white_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2,
    Pieces.black_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2]
  refine (congrFun (Pieces.scores_last (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.1 (outsAt0 m c (t.val - 1) (Nat.lt_of_le_of_lt (Nat.sub_le _ _) t.isLt)).2.2) (ix2 p (0 : Fin 1))).trans ?_
  exact Payloads.scores_apply (k0_pay3 (iblk m c 0 t) (iblk m c 2 t) (outsAt0 m c (t.val - 1) (Nat.lt_of_le_of_lt (Nat.sub_le _ _) t.isLt)).2.1) (k0_pay4 (iblk m c 1 t) (iblk m c 3 t) (outsAt0 m c (t.val - 1) (Nat.lt_of_le_of_lt (Nat.sub_le _ _) t.isLt)).2.2)
    (iblk m c 4 t) (iblk m c 5 t) (iblk m c 6 t) (iblk m c 7 t) (iblk m c 8 t) (iblk m c 9 t) (iblk m c 10 t) (iblk m c 11 t) (iblk m c 12 t) p

end Cert.KernelIdeal.Points

end
-- ==== Proof.KBlocks.lean ====
/-
  Each window's block at a grid point, read at an index written by its coordinates.

  The grid has 2 x 41 points; point `t` is batch half `t / 41` and feature tile `t % 41`. The feature windows take
  rows `2048 (t / 41) + a` and lanes `1024 (t % 41) + b` of the padded feature matrices; the weight windows take all
  256 rows and the same lanes of the padded weight matrices; the flag window takes the same rows of the flag column;
  the remaining windows take their small arrays whole. The offsets are the printed index maps, decided once over the
  82 points.
-/
import proofs.«128210_j78331613544881_2_alg».proof.Proof.Gen.KernelIdeal.Frame.Runs
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

theorem idx0 : ∀ t : Fin cfg0.N, win0_0.index t (0 : Fin 2) = t.val / 41 ∧ win0_0.index t (1 : Fin 2) = t.val % 41 :=
  (by decide +kernel : ∀ t : Fin grid0.N, _)

/-- The block of the white features at point `t`: entry (a, b) of the block is the staged array at the block's offset plus (a, b). -/
theorem block0 (c : Dev nD) (t : Fin cfg0.N) (a : Fin 2048) (b : Fin 1024) (A : Fin 4096) (B : Fin 41984)
    (hA : A.val = (t.val / 41) * 2048 + a.val) (hB : B.val = (t.val % 41) * 1024 + b.val) :
    (iblk m c 0 t : S2048x1024.Idx → Ideal .f32) (ix2 a b) = (V m c main_v0 : S4096x41984.Idx → Ideal .f32) (ix2 A B) := by
  obtain ⟨h0, h1⟩ := idx0 t
  unfold iblk
  rw [View.read_apply]
  show V m c main_v0 _ = V m c main_v0 _
  congr 1
  funext d
  apply Fin.ext
  match d with
  | ⟨0, _⟩ => show win0_0.index t 0 * 2048 + 1 * a.val = A.val; rw [h0, hA]; omega
  | ⟨1, _⟩ => show win0_0.index t 1 * 1024 + 1 * b.val = B.val; rw [h1, hB]; omega

theorem idx1 : ∀ t : Fin cfg0.N, win0_1.index t (0 : Fin 2) = t.val / 41 ∧ win0_1.index t (1 : Fin 2) = t.val % 41 :=
  (by decide +kernel : ∀ t : Fin grid0.N, _)

/-- The block of the black features at point `t`: entry (a, b) of the block is the staged array at the block's offset plus (a, b). -/
theorem block1 (c : Dev nD) (t : Fin cfg0.N) (a : Fin 2048) (b : Fin 1024) (A : Fin 4096) (B : Fin 41984)
    (hA : A.val = (t.val / 41) * 2048 + a.val) (hB : B.val = (t.val % 41) * 1024 + b.val) :
    (iblk m c 1 t : S2048x1024.Idx → Ideal .f32) (ix2 a b) = (V m c main_v1 : S4096x41984.Idx → Ideal .f32) (ix2 A B) := by
  obtain ⟨h0, h1⟩ := idx1 t
  unfold iblk
  rw [View.read_apply]
  show V m c main_v1 _ = V m c main_v1 _
  congr 1
  funext d
  apply Fin.ext
  match d with
  | ⟨0, _⟩ => show win0_1.index t 0 * 2048 + 1 * a.val = A.val; rw [h0, hA]; omega
  | ⟨1, _⟩ => show win0_1.index t 1 * 1024 + 1 * b.val = B.val; rw [h1, hB]; omega

theorem idx2 : ∀ t : Fin cfg0.N, win0_2.index t (0 : Fin 2) = 0 ∧ win0_2.index t (1 : Fin 2) = t.val % 41 :=
  (by decide +kernel : ∀ t : Fin grid0.N, _)

/-- The block of the white weights at point `t`: entry (a, b) of the block is the staged array at the block's offset plus (a, b). -/
theorem block2 (c : Dev nD) (t : Fin cfg0.N) (a : Fin 256) (b : Fin 1024) (A : Fin 256) (B : Fin 41984)
    (hA : A.val = (0) * 256 + a.val) (hB : B.val = (t.val % 41) * 1024 + b.val) :
    (iblk m c 2 t : S256x1024.Idx → Ideal .f32) (ix2 a b) = (V m c main_v2 : S256x41984.Idx → Ideal .f32) (ix2 A B) := by
  obtain ⟨h0, h1⟩ := idx2 t
  unfold iblk
  rw [View.read_apply]
  show V m c main_v2 _ = V m c main_v2 _
  congr 1
  funext d
  apply Fin.ext
  match d with
  | ⟨0, _⟩ => show win0_2.index t 0 * 256 + 1 * a.val = A.val; rw [h0, hA]; omega
  | ⟨1, _⟩ => show win0_2.index t 1 * 1024 + 1 * b.val = B.val; rw [h1, hB]; omega

theorem idx3 : ∀ t : Fin cfg0.N, win0_3.index t (0 : Fin 2) = 0 ∧ win0_3.index t (1 : Fin 2) = t.val % 41 :=
  (by decide +kernel : ∀ t : Fin grid0.N, _)

/-- The block of the black weights at point `t`: entry (a, b) of the block is the staged array at the block's offset plus (a, b). -/
theorem block3 (c : Dev nD) (t : Fin cfg0.N) (a : Fin 256) (b : Fin 1024) (A : Fin 256) (B : Fin 41984)
    (hA : A.val = (0) * 256 + a.val) (hB : B.val = (t.val % 41) * 1024 + b.val) :
    (iblk m c 3 t : S256x1024.Idx → Ideal .f32) (ix2 a b) = (V m c main_v3 : S256x41984.Idx → Ideal .f32) (ix2 A B) := by
  obtain ⟨h0, h1⟩ := idx3 t
  unfold iblk
  rw [View.read_apply]
  show V m c main_v3 _ = V m c main_v3 _
  congr 1
  funext d
  apply Fin.ext
  match d with
  | ⟨0, _⟩ => show win0_3.index t 0 * 256 + 1 * a.val = A.val; rw [h0, hA]; omega
  | ⟨1, _⟩ => show win0_3.index t 1 * 1024 + 1 * b.val = B.val; rw [h1, hB]; omega

theorem idx4 : ∀ t : Fin cfg0.N, win0_4.index t (0 : Fin 2) = t.val / 41 ∧ win0_4.index t (1 : Fin 2) = 0 :=
  (by decide +kernel : ∀ t : Fin grid0.N, _)

/-- The block of the side-to-move flags at point `t`: entry (a, b) of the block is the staged array at the block's offset plus (a, b). -/
theorem block4 (c : Dev nD) (t : Fin cfg0.N) (a : Fin 2048) (b : Fin 1) (A : Fin 4096) (B : Fin 1)
    (hA : A.val = (t.val / 41) * 2048 + a.val) (hB : B.val = (0) * 1 + b.val) :
    (iblk m c 4 t : S2048x1.Idx → Ideal .f32) (ix2 a b) = (V m c main_arg2 : S4096x1.Idx → Ideal .f32) (ix2 A B) := by
  obtain ⟨h0, h1⟩ := idx4 t
  unfold iblk
  rw [View.read_apply]
  show V m c main_arg2 _ = V m c main_arg2 _
  congr 1
  funext d
  apply Fin.ext
  match d with
  | ⟨0, _⟩ => show win0_4.index t 0 * 2048 + 1 * a.val = A.val; rw [h0, hA]; omega
  | ⟨1, _⟩ => show win0_4.index t 1 * 1 + 1 * b.val = B.val; rw [h1, hB]; omega

theorem idx5 : ∀ t : Fin cfg0.N, win0_5.index t (0 : Fin 2) = 0 ∧ win0_5.index t (1 : Fin 2) = 0 :=
  (by decide +kernel : ∀ t : Fin grid0.N, _)

/-- The block of the white bias row at point `t`: entry (a, b) of the block is the staged array at the block's offset plus (a, b). -/
theorem block5 (c : Dev nD) (t : Fin cfg0.N) (a : Fin 1) (b : Fin 256) (A : Fin 1) (B : Fin 256)
    (hA : A.val = (0) * 1 + a.val) (hB : B.val = (0) * 256 + b.val) :
    (iblk m c 5 t : S1x256.Idx → Ideal .f32) (ix2 a b) = (V m c main_v4 : S1x256.Idx → Ideal .f32) (ix2 A B) := by
  obtain ⟨h0, h1⟩ := idx5 t
  unfold iblk
  rw [View.read_apply]
  show V m c main_v4 _ = V m c main_v4 _
  congr 1
  funext d
  apply Fin.ext
  match d with
  | ⟨0, _⟩ => show win0_5.index t 0 * 1 + 1 * a.val = A.val; rw [h0, hA]; omega
  | ⟨1, _⟩ => show win0_5.index t 1 * 256 + 1 * b.val = B.val; rw [h1, hB]; omega

theorem idx6 : ∀ t : Fin cfg0.N, win0_6.index t (0 : Fin 2) = 0 ∧ win0_6.index t (1 : Fin 2) = 0 :=
  (by decide +kernel : ∀ t : Fin grid0.N, _)

/-- The block of the black bias row at point `t`: entry (a, b) of the block is the staged array at the block's offset plus (a, b). -/
theorem block6 (c : Dev nD) (t : Fin cfg0.N) (a : Fin 1) (b : Fin 256) (A : Fin 1) (B : Fin 256)
    (hA : A.val = (0) * 1 + a.val) (hB : B.val = (0) * 256 + b.val) :
    (iblk m c 6 t : S1x256.Idx → Ideal .f32) (ix2 a b) = (V m c main_v5 : S1x256.Idx → Ideal .f32) (ix2 A B) := by
  obtain ⟨h0, h1⟩ := idx6 t
  unfold iblk
  rw [View.read_apply]
  show V m c main_v5 _ = V m c main_v5 _
  congr 1
  funext d
  apply Fin.ext
  match d with
  | ⟨0, _⟩ => show win0_6.index t 0 * 1 + 1 * a.val = A.val; rw [h0, hA]; omega
  | ⟨1, _⟩ => show win0_6.index t 1 * 256 + 1 * b.val = B.val; rw [h1, hB]; omega

theorem idx7 : ∀ t : Fin cfg0.N, win0_7.index t (0 : Fin 2) = 0 ∧ win0_7.index t (1 : Fin 2) = 0 :=
  (by decide +kernel : ∀ t : Fin grid0.N, _)

/-- The block of the first dense weights at point `t`: entry (a, b) of the block is the staged array at the block's offset plus (a, b). -/
theorem block7 (c : Dev nD) (t : Fin cfg0.N) (a : Fin 32) (b : Fin 512) (A : Fin 32) (B : Fin 512)
    (hA : A.val = (0) * 32 + a.val) (hB : B.val = (0) * 512 + b.val) :
    (iblk m c 7 t : S32x512.Idx → Ideal .f32) (ix2 a b) = (V m c main_arg7 : S32x512.Idx → Ideal .f32) (ix2 A B) := by
  obtain ⟨h0, h1⟩ := idx7 t
  unfold iblk
  rw [View.read_apply]
  show V m c main_arg7 _ = V m c main_arg7 _
  congr 1
  funext d
  apply Fin.ext
  match d with
  | ⟨0, _⟩ => show win0_7.index t 0 * 32 + 1 * a.val = A.val; rw [h0, hA]; omega
  | ⟨1, _⟩ => show win0_7.index t 1 * 512 + 1 * b.val = B.val; rw [h1, hB]; omega

theorem idx8 : ∀ t : Fin cfg0.N, win0_8.index t (0 : Fin 2) = 0 ∧ win0_8.index t (1 : Fin 2) = 0 :=
  (by decide +kernel : ∀ t : Fin grid0.N, _)

/-- The block of the first dense bias row at point `t`: entry (a, b) of the block is the staged array at the block's offset plus (a, b). -/
theorem block8 (c : Dev nD) (t : Fin cfg0.N) (a : Fin 1) (b : Fin 32) (A : Fin 1) (B : Fin 32)
    (hA : A.val = (0) * 1 + a.val) (hB : B.val = (0) * 32 + b.val) :
    (iblk m c 8 t : S1x32.Idx → Ideal .f32) (ix2 a b) = (V m c main_v6 : S1x32.Idx → Ideal .f32) (ix2 A B) := by
  obtain ⟨h0, h1⟩ := idx8 t
  unfold iblk
  rw [View.read_apply]
  show V m c main_v6 _ = V m c main_v6 _
  congr 1
  funext d
  apply Fin.ext
  match d with
  | ⟨0, _⟩ => show win0_8.index t 0 * 1 + 1 * a.val = A.val; rw [h0, hA]; omega
  | ⟨1, _⟩ => show win0_8.index t 1 * 32 + 1 * b.val = B.val; rw [h1, hB]; omega

theorem idx9 : ∀ t : Fin cfg0.N, win0_9.index t (0 : Fin 2) = 0 ∧ win0_9.index t (1 : Fin 2) = 0 :=
  (by decide +kernel : ∀ t : Fin grid0.N, _)

/-- The block of the second dense weights at point `t`: entry (a, b) of the block is the staged array at the block's offset plus (a, b). -/
theorem block9 (c : Dev nD) (t : Fin cfg0.N) (a : Fin 32) (b : Fin 32) (A : Fin 32) (B : Fin 32)
    (hA : A.val = (0) * 32 + a.val) (hB : B.val = (0) * 32 + b.val) :
    (iblk m c 9 t : S32x32.Idx → Ideal .f32) (ix2 a b) = (V m c main_arg9 : S32x32.Idx → Ideal .f32) (ix2 A B) := by
  obtain ⟨h0, h1⟩ := idx9 t
  unfold iblk
  rw [View.read_apply]
  show V m c main_arg9 _ = V m c main_arg9 _
  congr 1
  funext d
  apply Fin.ext
  match d with
  | ⟨0, _⟩ => show win0_9.index t 0 * 32 + 1 * a.val = A.val; rw [h0, hA]; omega
  | ⟨1, _⟩ => show win0_9.index t 1 * 32 + 1 * b.val = B.val; rw [h1, hB]; omega

theorem idx10 : ∀ t : Fin cfg0.N, win0_10.index t (0 : Fin 2) = 0 ∧ win0_10.index t (1 : Fin 2) = 0 :=
  (by decide +kernel : ∀ t : Fin grid0.N, _)

/-- The block of the second dense bias row at point `t`: entry (a, b) of the block is the staged array at the block's offset plus (a, b). -/
theorem block10 (c : Dev nD) (t : Fin cfg0.N) (a : Fin 1) (b : Fin 32) (A : Fin 1) (B : Fin 32)
    (hA : A.val = (0) * 1 + a.val) (hB : B.val = (0) * 32 + b.val) :
    (iblk m c 10 t : S1x32.Idx → Ideal .f32) (ix2 a b) = (V m c main_v7 : S1x32.Idx → Ideal .f32) (ix2 A B) := by
  obtain ⟨h0, h1⟩ := idx10 t
  unfold iblk
  rw [View.read_apply]
  show V m c main_v7 _ = V m c main_v7 _
  congr 1
  funext d
  apply Fin.ext
  match d with
  | ⟨0, _⟩ => show win0_10.index t 0 * 1 + 1 * a.val = A.val; rw [h0, hA]; omega
  | ⟨1, _⟩ => show win0_10.index t 1 * 32 + 1 * b.val = B.val; rw [h1, hB]; omega

theorem idx11 : ∀ t : Fin cfg0.N, win0_11.index t (0 : Fin 2) = 0 ∧ win0_11.index t (1 : Fin 2) = 0 :=
  (by decide +kernel : ∀ t : Fin grid0.N, _)

/-- The block of the output weights at point `t`: entry (a, b) of the block is the staged array at the block's offset plus (a, b). -/
theorem block11 (c : Dev nD) (t : Fin cfg0.N) (a : Fin 1) (b : Fin 32) (A : Fin 1) (B : Fin 32)
    (hA : A.val = (0) * 1 + a.val) (hB : B.val = (0) * 32 + b.val) :
    (iblk m c 11 t : S1x32.Idx → Ideal .f32) (ix2 a b) = (V m c main_arg11 : S1x32.Idx → Ideal .f32) (ix2 A B) := by
  obtain ⟨h0, h1⟩ := idx11 t
  unfold iblk
  rw [View.read_apply]
  show V m c main_arg11 _ = V m c main_arg11 _
  congr 1
  funext d
  apply Fin.ext
  match d with
  | ⟨0, _⟩ => show win0_11.index t 0 * 1 + 1 * a.val = A.val; rw [h0, hA]; omega
  | ⟨1, _⟩ => show win0_11.index t 1 * 32 + 1 * b.val = B.val; rw [h1, hB]; omega

theorem idx12 : ∀ t : Fin cfg0.N, win0_12.index t (0 : Fin 2) = 0 ∧ win0_12.index t (1 : Fin 2) = 0 :=
  (by decide +kernel : ∀ t : Fin grid0.N, _)

/-- The block of the output bias at point `t`: entry (a, b) of the block is the staged array at the block's offset plus (a, b). -/
theorem block12 (c : Dev nD) (t : Fin cfg0.N) (a : Fin 1) (b : Fin 1) (A : Fin 1) (B : Fin 1)
    (hA : A.val = (0) * 1 + a.val) (hB : B.val = (0) * 1 + b.val) :
    (iblk m c 12 t : S1x1.Idx → Ideal .f32) (ix2 a b) = (V m c main_v8 : S1x1.Idx → Ideal .f32) (ix2 A B) := by
  obtain ⟨h0, h1⟩ := idx12 t
  unfold iblk
  rw [View.read_apply]
  show V m c main_v8 _ = V m c main_v8 _
  congr 1
  funext d
  apply Fin.ext
  match d with
  | ⟨0, _⟩ => show win0_12.index t 0 * 1 + 1 * a.val = A.val; rw [h0, hA]; omega
  | ⟨1, _⟩ => show win0_12.index t 1 * 1 + 1 * b.val = B.val; rw [h1, hB]; omega

end Cert.KernelIdeal.Blocks

end
-- ==== Proof.LibPadLanes.lean ====
/-
  A matrix padded on the high side of its lane axis, read at an index written by its coordinates: a lane inside the
  matrix's width reads the matrix there, a later lane reads the padding value. Both are the library's reading of a
  host pad inside and outside the operand, with the coordinates worked out for rank two, no low padding and no
  interior padding.
-/
import Idealize.ShloMosaic.Lib.KernelVsHost
import Idealize.ShloMosaic.Lib.ValueIdx

namespace Cert.LibPadLanes

open Idealize.ShloMosaic Idealize.ShloMosaic.ValueIdx

variable {α : Type}

/-- A lane inside the matrix's width: the matrix at the same row and lane. -/
theorem pad_lanes_inside {a n N p : ℕ} (x : (⟨2, ![a, n]⟩ : Shape).Idx → α) {u : Shape} (v : u.Idx → α)
    (h : (⟨2, ![a, n]⟩ : Shape).Pads ![0, 0] ![0, p] ![0, 0] (⟨2, ![a, N]⟩ : Shape)) (hu : 0 < u.numel)
    (r : Fin a) (g : Fin N) (g' : Fin n) (hg : g'.val = g.val) :
    pad (⟨2, ![a, N]⟩ : Shape) ![0, 0] ![0, p] ![0, 0] x v h hu (ix2 r g) = x (ix2 r g') :=
  pad_apply_of_inside ![0, 0] ![0, p] ![0, 0] x v h hu (ix2 r g) (ix2 r g') fun d => by
    match d with
    | ⟨0, _⟩ => show r.val = 0 + r.val * (0 + 1); omega
    | ⟨1, _⟩ => show g.val = 0 + g'.val * (0 + 1); omega

/-- A lane past the matrix's width: the padding value. -/
theorem pad_lanes_outside {a n N p : ℕ} (x : (⟨2, ![a, n]⟩ : Shape).Idx → α) {u : Shape} (v : u.Idx → α)
    (h : (⟨2, ![a, n]⟩ : Shape).Pads ![0, 0] ![0, p] ![0, 0] (⟨2, ![a, N]⟩ : Shape)) (hu : 0 < u.numel)
    (r : Fin a) (g : Fin N) (hg : n ≤ g.val) :
    pad (⟨2, ![a, N]⟩ : Shape) ![0, 0] ![0, p] ![0, 0] x v h hu (ix2 r g) = v (Shape.Idx.first hu) :=
  pad_apply_of_not_inside ![0, 0] ![0, p] ![0, 0] x v h hu (ix2 r g) 1 fun hh => by
    have h3 : (g.val - 0) / (0 + 1) < n := hh.2.2
    omega

end Cert.LibPadLanes
-- ==== Proof.KEntry.lean ====
/-
  What the region finds in the arrays it stages, as functions of the argument arrays, over the extended reals.

  Before the region the two feature matrices and the two weight matrices are padded from 41920 to 41984 lanes with the
  integer zero converted to a float, which is the float zero; the five bias vectors are viewed as one-row matrices.
  Read at an index: a padded matrix is the argument inside the first 41920 lanes and zero past them, and a one-row
  view of a vector reads the vector.
-/
import proofs.«128210_j78331613544881_2_alg».proof.Proof.Gen.KernelIdeal.Frame.Runs
import proofs.«128210_j78331613544881_2_alg».proof.Proof.LibPadLanes
import Idealize.ShloMosaic.Lib.StableHlo.Run
import Idealize.ShloMosaic.Lib.ValueLayout
import Idealize.ShloMosaic.Lib.Tactic

set_option maxRecDepth 16384

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The padding value: the integer zero converted to a float is zero. -/
theorem converted_zero (i : S_.Idx) : sitofp (F := Ideal) .f32 (constantI S_ 32 0#32) i = 0 := by
  show (((0#32 : BitVec 32).toInt : ℝ) : EReal) = 0
  simp

/-- The white feature matrix as the region finds it: the argument padded with 64 more lanes holding the converted integer zero. -/
theorem white_term (c : Dev nD) :
    (V m c main_v0 : S4096x41984.Idx → Ideal .f32)
      = pad S4096x41984 ![0, 0] ![0, 64] ![0, 0] (m ((c : Thread nD τ).loc main_arg0)) (sitofp (F := Ideal) .f32 (constantI S_ 32 0#32))
          pads_S4096x41920_S4096x41984_000_0640 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- … so at row `r` and lane `g` it is the argument's entry when `g` is one of the 41920 features, and zero past them. -/
theorem white_apply (c : Dev nD) (r : Fin 4096) (g : Fin 41984) :
    (V m c main_v0 : S4096x41984.Idx → Ideal .f32) (ix2 r g)
      = (if h : g.val < 41920 then (m ((c : Thread nD τ).loc main_arg0) : _ → EReal) (ix2 r ⟨g.val, h⟩) else 0 : EReal) := by
  rw [white_term]
  by_cases h : g.val < 41920
  · rw [dif_pos h]
    exact Cert.LibPadLanes.pad_lanes_inside _ _ _ _ r g ⟨g.val, h⟩ rfl
  · rw [dif_neg h]
    refine (Cert.LibPadLanes.pad_lanes_outside _ _ _ _ r g (by omega)).trans ?_
    exact converted_zero _

/-- The black feature matrix as the region finds it: the argument padded with 64 more lanes holding the converted integer zero. -/
theorem black_term (c : Dev nD) :
    (V m c main_v1 : S4096x41984.Idx → Ideal .f32)
      = pad S4096x41984 ![0, 0] ![0, 64] ![0, 0] (m ((c : Thread nD τ).loc main_arg1)) (sitofp (F := Ideal) .f32 (constantI S_ 32 0#32))
          pads_S4096x41920_S4096x41984_000_0640 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- … so at row `r` and lane `g` it is the argument's entry when `g` is one of the 41920 features, and zero past them. -/
theorem black_apply (c : Dev nD) (r : Fin 4096) (g : Fin 41984) :
    (V m c main_v1 : S4096x41984.Idx → Ideal .f32) (ix2 r g)
      = (if h : g.val < 41920 then (m ((c : Thread nD τ).loc main_arg1) : _ → EReal) (ix2 r ⟨g.val, h⟩) else 0 : EReal) := by
  rw [black_term]
  by_cases h : g.val < 41920
  · rw [dif_pos h]
    exact Cert.LibPadLanes.pad_lanes_inside _ _ _ _ r g ⟨g.val, h⟩ rfl
  · rw [dif_neg h]
    refine (Cert.LibPadLanes.pad_lanes_outside _ _ _ _ r g (by omega)).trans ?_
    exact converted_zero _

/-- The white weight matrix as the region finds it: the argument padded with 64 more lanes holding the converted integer zero. -/
theorem whiteW_term (c : Dev nD) :
    (V m c main_v2 : S256x41984.Idx → Ideal .f32)
      = pad S256x41984 ![0, 0] ![0, 64] ![0, 0] (m ((c : Thread nD τ).loc main_arg3)) (sitofp (F := Ideal) .f32 (constantI S_ 32 0#32))
          pads_S256x41920_S256x41984_000_0640 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- … so at row `r` and lane `g` it is the argument's entry when `g` is one of the 41920 features, and zero past them. -/
theorem whiteW_apply (c : Dev nD) (r : Fin 256) (g : Fin 41984) :
    (V m c main_v2 : S256x41984.Idx → Ideal .f32) (ix2 r g)
      = (if h : g.val < 41920 then (m ((c : Thread nD τ).loc main_arg3) : _ → EReal) (ix2 r ⟨g.val, h⟩) else 0 : EReal) := by
  rw [whiteW_term]
  by_cases h : g.val < 41920
  · rw [dif_pos h]
    exact Cert.LibPadLanes.pad_lanes_inside _ _ _ _ r g ⟨g.val, h⟩ rfl
  · rw [dif_neg h]
    refine (Cert.LibPadLanes.pad_lanes_outside _ _ _ _ r g (by omega)).trans ?_
    exact converted_zero _

/-- The black weight matrix as the region finds it: the argument padded with 64 more lanes holding the converted integer zero. -/
theorem blackW_term (c : Dev nD) :
    (V m c main_v3 : S256x41984.Idx → Ideal .f32)
      = pad S256x41984 ![0, 0] ![0, 64] ![0, 0] (m ((c : Thread nD τ).loc main_arg5)) (sitofp (F := Ideal) .f32 (constantI S_ 32 0#32))
          pads_S256x41920_S256x41984_000_0640 h_S_ := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  after_results
  rfl

/-- … so at row `r` and lane `g` it is the argument's entry when `g` is one of the 41920 features, and zero past them. -/
theorem blackW_apply (c : Dev nD) (r : Fin 256) (g : Fin 41984) :
    (V m c main_v3 : S256x41984.Idx → Ideal .f32) (ix2 r g)
      = (if h : g.val < 41920 then (m ((c : Thread nD τ).loc main_arg5) : _ → EReal) (ix2 r ⟨g.val, h⟩) else 0 : EReal) := by
  rw [blackW_term]
  by_cases h : g.val < 41920
  · rw [dif_pos h]
    exact Cert.LibPadLanes.pad_lanes_inside _ _ _ _ r g ⟨g.val, h⟩ rfl
  · rw [dif_neg h]
    refine (Cert.LibPadLanes.pad_lanes_outside _ _ _ _ r g (by omega)).trans ?_
    exact converted_zero _

/-- The white bias as the region finds it: the argument vector viewed as one row. -/
theorem whiteB_apply (c : Dev nD) (h : Fin 256) :
    (V m c main_v4 : S1x256.Idx → Ideal .f32) (ix2 (0 : Fin 1) h) = m ((c : Thread nD τ).loc main_arg4) (ix1 h) := by
  have e : (V m c main_v4 : S1x256.Idx → Ideal .f32)
      = shapeCast S1x256 (m ((c : Thread nD τ).loc main_arg4)) shapeCasts_S256_S1x256 := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [e]
  exact shapeCast_a_1a_apply _ _ 0 h

/-- The black bias as the region finds it: the argument vector viewed as one row. -/
theorem blackB_apply (c : Dev nD) (h : Fin 256) :
    (V m c main_v5 : S1x256.Idx → Ideal .f32) (ix2 (0 : Fin 1) h) = m ((c : Thread nD τ).loc main_arg6) (ix1 h) := by
  have e : (V m c main_v5 : S1x256.Idx → Ideal .f32)
      = shapeCast S1x256 (m ((c : Thread nD τ).loc main_arg6)) shapeCasts_S256_S1x256 := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [e]
  exact shapeCast_a_1a_apply _ _ 0 h

/-- The first dense layer's bias as the region finds it: the argument vector viewed as one row. -/
theorem bias1_apply (c : Dev nD) (h : Fin 32) :
    (V m c main_v6 : S1x32.Idx → Ideal .f32) (ix2 (0 : Fin 1) h) = m ((c : Thread nD τ).loc main_arg8) (ix1 h) := by
  have e : (V m c main_v6 : S1x32.Idx → Ideal .f32)
      = shapeCast S1x32 (m ((c : Thread nD τ).loc main_arg8)) shapeCasts_S32_S1x32 := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [e]
  exact shapeCast_a_1a_apply _ _ 0 h

/-- The second dense layer's bias as the region finds it: the argument vector viewed as one row. -/
theorem bias2_apply (c : Dev nD) (h : Fin 32) :
    (V m c main_v7 : S1x32.Idx → Ideal .f32) (ix2 (0 : Fin 1) h) = m ((c : Thread nD τ).loc main_arg10) (ix1 h) := by
  have e : (V m c main_v7 : S1x32.Idx → Ideal .f32)
      = shapeCast S1x32 (m ((c : Thread nD τ).loc main_arg10)) shapeCasts_S32_S1x32 := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [e]
  exact shapeCast_a_1a_apply _ _ 0 h

/-- The output bias as the region finds it: the argument vector viewed as one row. -/
theorem biasO_apply (c : Dev nD) (h : Fin 1) :
    (V m c main_v8 : S1x1.Idx → Ideal .f32) (ix2 (0 : Fin 1) h) = m ((c : Thread nD τ).loc main_arg12) (ix1 h) := by
  have e : (V m c main_v8 : S1x1.Idx → Ideal .f32)
      = shapeCast S1x1 (m ((c : Thread nD τ).loc main_arg12)) shapeCasts_S1_S1x1 := by
    dsimp only [V]
    simp only [hostOps0, hostOps0_1, hostOps0_2, hostOps0_3, hostOps0_4, hostOps0_5, hostOps0_6, hostOps0_7, hostOps0_8, List.flatten_cons, List.flatten_nil, List.append_nil, List.cons_append, List.nil_append]
    after_results
    rfl
  rw [e]
  exact shapeCast_a_1a_apply _ _ 0 h

end Cert.KernelIdeal.Entry

end
-- ==== Proof.KAccum.lean ====
/-
  The accumulators after the last feature tile hold the plain sums over the 41920 features.

  A padded feature row and a padded weight row are the argument rows inside the first 41920 lanes and zero past them,
  so their lane-by-lane products vanish from 41920 on. After point n an accumulator entry is the ordered chain of the
  tile sums 0 … n % 41 of those products, by induction on the point: the first tile of a batch half starts the chain at
  zero, every later tile adds one more term, and the batch half does not change between a point and the next unless the
  next is a first tile. By the tiled-sum law, after tile 40 the entry is the sum over the 41920 features of feature
  row times weight row.
-/
import proofs.«128210_j78331613544881_2_alg».proof.Proof.Spec
import proofs.«128210_j78331613544881_2_alg».proof.Proof.KPoints
import proofs.«128210_j78331613544881_2_alg».proof.Proof.KBlocks
import proofs.«128210_j78331613544881_2_alg».proof.Proof.KEntry

set_option maxRecDepth 16384

noncomputable section

namespace Cert.KernelIdeal.Accum

open Cert.KernelIdeal Cert.KernelIdeal.Gen Idealize.ShloMosaic Idealize.ShloMosaic.TcCoe Idealize.SL.Sem
open Idealize.ShloMosaic.ValueIdx

/-- Row `r` of a feature matrix at padded lane `g`: the matrix inside 41920 lanes, zero past them. -/
def feat (X : (⟨2, ![4096, 41920]⟩ : Shape).Idx → EReal) (r : Fin 4096) (g : ℕ) : EReal :=
  if h : g < 41920 then X (ix2 r ⟨g, h⟩) else 0

/-- Row `h` of a weight matrix at padded lane `g`: the matrix inside 41920 lanes, zero past them. -/
def wgt (W : (⟨2, ![256, 41920]⟩ : Shape).Idx → EReal) (h : Fin 256) (g : ℕ) : EReal :=
  if hg : g < 41920 then W (ix2 h ⟨g, hg⟩) else 0

/-- Tile `k`'s sum of products of padded feature row `R` and padded weight row `h`. -/
def tileSum (X : (⟨2, ![4096, 41920]⟩ : Shape).Idx → EReal) (W : (⟨2, ![256, 41920]⟩ : Shape).Idx → EReal)
    (R : Fin 4096) (h : Fin 256) (k : ℕ) : EReal :=
  ∑ f : Fin 1024, feat X R (1024 * k + f.val) * wgt W h (1024 * k + f.val)

/-- Past the 41920 features both padded rows are zero, and so is their product. -/
theorem prod_vanishes (X : (⟨2, ![4096, 41920]⟩ : Shape).Idx → EReal) (W : (⟨2, ![256, 41920]⟩ : Shape).Idx → EReal)
    (R : Fin 4096) (h : Fin 256) (g : ℕ) (hg : 41920 ≤ g) : feat X R g * wgt W h g = 0 := by
  unfold feat wgt
  rw [dif_neg (by omega), dif_neg (by omega), mul_zero]

/-- The chain of all 41 tiles is the sum over the 41920 features. -/
theorem tiles_total (X : (⟨2, ![4096, 41920]⟩ : Shape).Idx → EReal) (W : (⟨2, ![256, 41920]⟩ : Shape).Idx → EReal)
    (R : Fin 4096) (h : Fin 256) :
    Cert.Spec.chain (tileSum X W R h) 40 = ∑ f : Fin 41920, X (ix2 R f) * W (ix2 h f) := by
  refine (Cert.Spec.tiles_sum (fun g => feat X R g * wgt W h g) (prod_vanishes X W R h)).trans ?_
  refine Finset.sum_congr rfl fun g _ => ?_
  show feat X R g.val * wgt W h g.val = _
  unfold feat wgt
  rw [dif_pos g.isLt, dif_pos g.isLt]

variable (m : (ℓ : Loc nD τ sig) → Buf (Elt Ideal) ℓ)

/-- The white tile's contribution at point `t` is tile `t % 41` of the padded products of row `R` and weight row `h`. -/
theorem whiteTile_eq (c : Dev nD) (t : Fin cfg0.N) (p : Fin 2048) (h : Fin 256) (R : Fin 4096)
    (hR : R.val = (t.val / 41) * 2048 + p.val) :
    Points.whiteTile m c t p h
      = tileSum (m ((c : Thread nD τ).loc main_arg0)) (m ((c : Thread nD τ).loc main_arg3)) R h (t.val % 41) := by
  unfold Points.whiteTile tileSum
  dsimp only
  refine Finset.sum_congr rfl fun k _ => ?_
  have hk : 1024 * (t.val % 41) + k.val < 41984 := by
    have := k.isLt; have := Nat.mod_lt t.val (show 41 > 0 by decide); omega
  rw [Blocks.block0 m c t p k R ⟨1024 * (t.val % 41) + k.val, hk⟩ hR
        (by show 1024 * (t.val % 41) + k.val = (t.val % 41) * 1024 + k.val; omega),
    Blocks.block2 m c t h k h ⟨1024 * (t.val % 41) + k.val, hk⟩ (by omega)
        (by show 1024 * (t.val % 41) + k.val = (t.val % 41) * 1024 + k.val; omega),
    Entry.white_apply, Entry.whiteW_apply]
  rfl

/-- The white accumulator after point `n`, at (p, h): the ordered chain of the tiles 0 … n % 41 of row `R`. -/
theorem white_acc (c : Dev nD) : ∀ (n : ℕ) (hn : n < cfg0.N) (p : Fin 2048) (h : Fin 256) (R : Fin 4096),
    R.val = (n / 41) * 2048 + p.val →
    ((outsAt0 m c n hn).2.1 : S2048x256.Idx → Ideal .f32) (ix2 p h)
      = Cert.Spec.chain (tileSum (m ((c : Thread nD τ).loc main_arg0)) (m ((c : Thread nD τ).loc main_arg3)) R h) (n % 41)
  | 0, hn, p, h, R, hR => by
    refine (Points.white_first m c ⟨0, hn⟩ (Nat.zero_mod 41) (by show ¬0 % 41 = 40; omega) p h).trans ?_
    rw [whiteTile_eq m c ⟨0, hn⟩ p h R hR]
    rfl
  | n + 1, hn, p, h, R, hR => by
    have hN : n + 1 < 82 := lt_of_lt_of_eq hn (show cfg0.N = 82 from N_0)
    by_cases h0 : (n + 1) % 41 = 0
    · refine (Points.white_first m c ⟨n + 1, hn⟩ h0 (by show ¬(n + 1) % 41 = 40; omega) p h).trans ?_
      rw [whiteTile_eq m c ⟨n + 1, hn⟩ p h R hR]
      show _ = Cert.Spec.chain _ ((n + 1) % 41)
      rw [h0]
      rfl
    · refine (Points.white_later m c ⟨n + 1, hn⟩ h0 p h).trans ?_
      rw [whiteTile_eq m c ⟨n + 1, hn⟩ p h R hR]
      have e : (n + 1) % 41 = n % 41 + 1 := by omega
      have hR' : R.val = (n / 41) * 2048 + p.val := by
        have : (n + 1) / 41 = n / 41 := by omega
        rw [← this]; exact hR
      have ih := white_acc c n (Nat.lt_of_succ_lt hn) p h R hR'
      show _ + tileSum _ _ R h ((n + 1) % 41) = Cert.Spec.chain _ ((n + 1) % 41)
      rw [e]
      show _ = Cert.Spec.chain _ (n % 41) + _
      exact congrArg (· + tileSum _ _ R h (n % 41 + 1)) ih

/-- The black tile's contribution at point `t` is tile `t % 41` of the padded products of row `R` and weight row `h`. -/
theorem blackTile_eq (c : Dev nD) (t : Fin cfg0.N) (p : Fin 2048) (h : Fin 256) (R : Fin 4096)
    (hR : R.val = (t.val / 41) * 2048 + p.val) :
    Points.blackTile m c t p h
      = tileSum (m ((c : Thread nD τ).loc main_arg1)) (m ((c : Thread nD τ).loc main_arg5)) R h (t.val % 41) := by
  unfold Points.blackTile tileSum
  dsimp only
  refine Finset.sum_congr rfl fun k _ => ?_
  have hk : 1024 * (t.val % 41) + k.val < 41984 := by
    have := k.isLt; have := Nat.mod_lt t.val (show 41 > 0 by decide); omega
  rw [Blocks.block1 m c t p k R ⟨1024 * (t.val % 41) + k.val, hk⟩ hR
        (by show 1024 * (t.val % 41) + k.val = (t.val % 41) * 1024 + k.val; omega),
    Blocks.block3 m c t h k h ⟨1024 * (t.val % 41) + k.val, hk⟩ (by omega)
        (by show 1024 * (t.val % 41) + k.val = (t.val % 41) * 1024 + k.val; omega),
    Entry.black_apply, Entry.blackW_apply]
  rfl

/-- The black accumulator after point `n`, at (p, h): the ordered chain of the tiles 0 … n % 41 of row `R`. -/
theorem black_acc (c : Dev nD) : ∀ (n : ℕ) (hn : n < cfg0.N) (p : Fin 2048) (h : Fin 256) (R : Fin 4096),
    R.val = (n / 41) * 2048 + p.val →
    ((outsAt0 m c n hn).2.2 : S2048x256.Idx → Ideal .f32) (ix2 p h)
      = Cert.Spec.chain (tileSum (m ((c : Thread nD τ).loc main_arg1)) (m ((c : Thread nD τ).loc main_arg5)) R h) (n % 41)
  | 0, hn, p, h, R, hR => by
    refine (Points.black_first m c ⟨0, hn⟩ (Nat.zero_mod 41) (by show ¬0 % 41 = 40; omega) p h).trans ?_
    rw [blackTile_eq m c ⟨0, hn⟩ p h R hR]
    rfl
  | n + 1, hn, p, h, R, hR => by
    have hN : n + 1 < 82 := lt_of_lt_of_eq hn (show cfg0.N = 82 from N_0)
    by_cases h0 : (n + 1) % 41 = 0
    · refine (Points.black_first m c ⟨n + 1, hn⟩ h0 (by show ¬(n + 1) % 41 = 40; omega) p h).trans ?_
      rw [blackTile_eq m c ⟨n + 1, hn⟩ p h R hR]
      show _ = Cert.Spec.chain _ ((n + 1) % 41)
      rw [h0]
      rfl
    · refine (Points.black_later m c ⟨n + 1, hn⟩ h0 p h).trans ?_
      rw [blackTile_eq m c ⟨n + 1, hn⟩ p h R hR]
      have e : (n + 1) % 41 = n % 41 + 1 := by omega
      have hR' : R.val = (n / 41) * 2048 + p.val := by
        have : (n + 1) / 41 = n / 41 := by omega
        rw [← this]; exact hR
      have ih := black_acc c n (Nat.lt_of_succ_lt hn) p h R hR'
      show _ + tileSum _ _ R h ((n + 1) % 41) = Cert.Spec.chain _ ((n + 1) % 41)
      rw [e]
      show _ = Cert.Spec.chain _ (n % 41) + _
      exact congrArg (· + tileSum _ _ R h (n % 41 + 1)) ih

end Cert.KernelIdeal.Accum

end
-- ==== Proof.KFinal.lean ====
/-
  From what the points write back to the whole result array.

  The small arrays (the dense layers' weights and biases, the output row and bias) are staged whole, so their blocks
  are the arguments; the flag block is rows 2048 (t / 41) + p of the flag column. After a last tile an accumulator with
  its bias row added is the specification's accumulator entry, so the output block written back at a last tile is the
  block of rows 2048 (t / 41) … of the specification's result. The two last tiles, t = 40 and t = 81, write back the two
  halves of the result array, which together cover it: the array after the run is the specification's result.
-/
import proofs.«128210_j78331613544881_2_alg».proof.Proof.Spec
import proofs.«128210_j78331613544881_2_alg».proof.Proof.KPoints
import proofs.«128210_j78331613544881_2_alg».proof.Proof.KBlocks
import proofs.«128210_j78331613544881_2_alg».proof.Proof.KEntry
import proofs.«128210_j78331613544881_2_alg».proof.Proof.KAccum
import proofs.«128210_j78331613544881_2_alg».proof.Proof.Gen.KernelIdeal.Value

set_option maxRecDepth 16384

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The specification's result at the argument arrays of core `c`. -/
def result (c : Dev nD) : S4096x1.Idx → EReal :=
  Cert.Spec.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))

/-! ## The blocks of the small arrays -/

/-- The block of the first dense layer's weights is the argument itself: the window takes the array whole and no host operation writes it. -/
theorem dense1_weights (c : Dev nD) (t : Fin cfg0.N) :
    (iblk m c 7 t : S32x512.Idx → Ideal .f32) = m ((c : Thread nD τ).loc main_arg7) := by
  funext i
  obtain ⟨a, b, rfl⟩ : ∃ (a : Fin 32) (b : Fin 512), i = ix2 a b := ⟨i 0, i 1, eq_ix2 i⟩
  rw [Blocks.block7 m c t a b a b (by omega) (by omega)]
  exact congrFun (V_main_arg7 m c) (ix2 a b)

/-- The block of the second dense layer's weights is the argument itself: the window takes the array whole and no host operation writes it. -/
theorem dense2_weights (c : Dev nD) (t : Fin cfg0.N) :
    (iblk m c 9 t : S32x32.Idx → Ideal .f32) = m ((c : Thread nD τ).loc main_arg9) := by
  funext i
  obtain ⟨a, b, rfl⟩ : ∃ (a : Fin 32) (b : Fin 32), i = ix2 a b := ⟨i 0, i 1, eq_ix2 i⟩
  rw [Blocks.block9 m c t a b a b (by omega) (by omega)]
  exact congrFun (V_main_arg9 m c) (ix2 a b)

/-- The block of the output row is the argument itself: the window takes the array whole and no host operation writes it. -/
theorem output_weights (c : Dev nD) (t : Fin cfg0.N) :
    (iblk m c 11 t : S1x32.Idx → Ideal .f32) = m ((c : Thread nD τ).loc main_arg11) := by
  funext i
  obtain ⟨a, b, rfl⟩ : ∃ (a : Fin 1) (b : Fin 32), i = ix2 a b := ⟨i 0, i 1, eq_ix2 i⟩
  rw [Blocks.block11 m c t a b a b (by omega) (by omega)]
  exact congrFun (V_main_arg11 m c) (ix2 a b)

/-- The one row of the block of the first dense layer's bias, read as a vector, is the argument vector. -/
theorem dense1_bias (c : Dev nD) (t : Fin cfg0.N) :
    (fun i : S32.Idx => (iblk m c 8 t : S1x32.Idx → Ideal .f32) (ix2 (0 : Fin 1) (i 0))) = m ((c : Thread nD τ).loc main_arg8) := by
  funext i
  obtain ⟨a, rfl⟩ : ∃ a : Fin 32, i = ix1 a := ⟨i 0, eq_ix1 i⟩
  show (iblk m c 8 t : S1x32.Idx → Ideal .f32) (ix2 (0 : Fin 1) a) = _
  rw [Blocks.block8 m c t 0 a 0 a (by omega) (by omega)]
  exact Entry.bias1_apply m c a

/-- The one row of the block of the second dense layer's bias, read as a vector, is the argument vector. -/
theorem dense2_bias (c : Dev nD) (t : Fin cfg0.N) :
    (fun i : S32.Idx => (iblk m c 10 t : S1x32.Idx → Ideal .f32) (ix2 (0 : Fin 1) (i 0))) = m ((c : Thread nD τ).loc main_arg10) := by
  funext i
  obtain ⟨a, rfl⟩ : ∃ a : Fin 32, i = ix1 a := ⟨i 0, eq_ix1 i⟩
  show (iblk m c 10 t : S1x32.Idx → Ideal .f32) (ix2 (0 : Fin 1) a) = _
  rw [Blocks.block10 m c t 0 a 0 a (by omega) (by omega)]
  exact Entry.bias2_apply m c a

/-- The one row of the block of the output bias, read as a vector, is the argument vector. -/
theorem output_bias (c : Dev nD) (t : Fin cfg0.N) :
    (fun i : S1.Idx => (iblk m c 12 t : S1x1.Idx → Ideal .f32) (ix2 (0 : Fin 1) (i 0))) = m ((c : Thread nD τ).loc main_arg12) := by
  funext i
  obtain ⟨a, rfl⟩ : ∃ a : Fin 1, i = ix1 a := ⟨i 0, eq_ix1 i⟩
  show (iblk m c 12 t : S1x1.Idx → Ideal .f32) (ix2 (0 : Fin 1) a) = _
  rw [Blocks.block12 m c t 0 a 0 a (by omega) (by omega)]
  exact Entry.biasO_apply m c a

/-- The flag block at row p is the flag of row `R` of the whole batch. -/
theorem flag_block (c : Dev nD) (t : Fin cfg0.N) (p : Fin 2048) (R : Fin 4096) (hR : R.val = (t.val / 41) * 2048 + p.val) :
    (iblk m c 4 t : S2048x1.Idx → Ideal .f32) (ix2 p (0 : Fin 1)) = m ((c : Thread nD τ).loc main_arg2) (ix2 R (0 : Fin 1)) := by
  rw [Blocks.block4 m c t p 0 R 0 hR (by omega)]
  exact congrFun (V_main_arg2 m c) (ix2 R (0 : Fin 1))

/-! ## The finished accumulators -/

/-- After a last tile the white accumulator at (p, h), with the bias row added, is the specification's accumulator
    entry of row `R` of the whole batch. -/
theorem white_total (c : Dev nD) (t : Fin cfg0.N) (h1 : t.val % 41 = 40) (p : Fin 2048) (h : Fin 256) (R : Fin 4096)
    (hR : R.val = (t.val / 41) * 2048 + p.val) :
    ((outsAt0 m c t.val t.isLt).2.1 : S2048x256.Idx → Ideal .f32) (ix2 p h)
        + (iblk m c 5 t : S1x256.Idx → Ideal .f32) (ix2 (0 : Fin 1) h)
      = Cert.Spec.accum (m ((c : Thread nD τ).loc main_arg0)) (m ((c : Thread nD τ).loc main_arg3)) (m ((c : Thread nD τ).loc main_arg4)) R h := by
  rw [Accum.white_acc m c t.val t.isLt p h R hR, h1, Accum.tiles_total,
    Blocks.block5 m c t 0 h 0 h (by omega) (by omega), Entry.whiteB_apply]
  rfl

/-- After a last tile the black accumulator at (p, h), with the bias row added, is the specification's accumulator
    entry of row `R` of the whole batch. -/
theorem black_total (c : Dev nD) (t : Fin cfg0.N) (h1 : t.val % 41 = 40) (p : Fin 2048) (h : Fin 256) (R : Fin 4096)
    (hR : R.val = (t.val / 41) * 2048 + p.val) :
    ((outsAt0 m c t.val t.isLt).2.2 : S2048x256.Idx → Ideal .f32) (ix2 p h)
        + (iblk m c 6 t : S1x256.Idx → Ideal .f32) (ix2 (0 : Fin 1) h)
      = Cert.Spec.accum (m ((c : Thread nD τ).loc main_arg1)) (m ((c : Thread nD τ).loc main_arg5)) (m ((c : Thread nD τ).loc main_arg6)) R h := by
  rw [Accum.black_acc m c t.val t.isLt p h R hR, h1, Accum.tiles_total,
    Blocks.block6 m c t 0 h 0 h (by omega) (by omega), Entry.blackB_apply]
  rfl

/-! ## What a last tile writes back -/

theorem idx13 : ∀ t : Fin cfg0.N, win0_13.index t (0 : Fin 2) = t.val / 41 ∧ win0_13.index t (1 : Fin 2) = 0 :=
  (by decide +kernel : ∀ t : Fin grid0.N, _)

/-- A point that writes the output back writes the block of rows 2048 (t / 41) … of the specification's result. -/
theorem flushed_eq (c : Dev nD) (t : Fin cfg0.N) (hf : (cfg0.win 13).flush t = true) :
    (dats m 0 c).flushed 13 t = ((cfg0.win 13).blk t).view.read (Elt Ideal) (result m c) := by
  have h1 : t.val % 41 = 40 := (flush0_13 t).mp hf
  have h0 : ¬t.val % 41 = 0 := by omega
  have hN : t.val < 82 := lt_of_lt_of_eq t.isLt (show cfg0.N = 82 from N_0)
  obtain ⟨e0, e1⟩ := idx13 t
  rw [Value.flushed13]
  funext j
  obtain ⟨p, q, rfl⟩ : ∃ (p : Fin 2048) (q : Fin 1), j = ix2 p q := ⟨j 0, j 1, eq_ix2 j⟩
  obtain rfl : q = 0 := Subsingleton.elim _ _
  have hRlt : (t.val / 41) * 2048 + p.val < 4096 := by have := p.isLt; omega
  have hemb : ((cfg0.win 13).blk t).view.emb (ix2 p (0 : Fin 1)) = ix2 (⟨(t.val / 41) * 2048 + p.val, hRlt⟩ : Fin 4096) (0 : Fin 1) := by
    funext d
    apply Fin.ext
    match d with
    | ⟨0, _⟩ => show win0_13.index t (0 : Fin 2) * 2048 + 1 * p.val = (t.val / 41) * 2048 + p.val; rw [e0]; omega
    | ⟨1, _⟩ => show win0_13.index t (1 : Fin 2) * 1 + 1 * 0 = 0; rw [e1]
  show ((outsAt0 m c t.val t.isLt).1 : S2048x1.Idx → Ideal .f32) (ix2 p (0 : Fin 1))
    = result m c (((cfg0.win 13).blk t).view.emb (ix2 p (0 : Fin 1)))
  rw [hemb, Points.scores_last m c t h0 h1 p]
  unfold result Cert.Spec.net
  have eW : (fun h => ((outsAt0 m c t.val t.isLt).2.1 : S2048x256.Idx → Ideal .f32) (ix2 p h)
        + (iblk m c 5 t : S1x256.Idx → Ideal .f32) (ix2 (0 : Fin 1) h))
      = fun h => Cert.Spec.accum (m ((c : Thread nD τ).loc main_arg0)) (m ((c : Thread nD τ).loc main_arg3))
          (m ((c : Thread nD τ).loc main_arg4)) ⟨(t.val / 41) * 2048 + p.val, hRlt⟩ h :=
    funext fun h => white_total m c t h1 p h ⟨(t.val / 41) * 2048 + p.val, hRlt⟩ rfl
  have eB : (fun h => ((outsAt0 m c t.val t.isLt).2.2 : S2048x256.Idx → Ideal .f32) (ix2 p h)
        + (iblk m c 6 t : S1x256.Idx → Ideal .f32) (ix2 (0 : Fin 1) h))
      = fun h => Cert.Spec.accum (m ((c : Thread nD τ).loc main_arg1)) (m ((c : Thread nD τ).loc main_arg5))
          (m ((c : Thread nD τ).loc main_arg6)) ⟨(t.val / 41) * 2048 + p.val, hRlt⟩ h :=
    funext fun h => black_total m c t h1 p h ⟨(t.val / 41) * 2048 + p.val, hRlt⟩ rfl
  rw [eW, eB, flag_block m c t p ⟨(t.val / 41) * 2048 + p.val, hRlt⟩ rfl, dense1_weights m c t, dense1_bias m c t,
    dense2_weights m c t, dense2_bias m c t, output_weights m c t, output_bias m c t]

/-! ## The write-backs cover the result array -/

theorem mem_blk (t : Fin cfg0.N) (i : S4096x1.Idx) :
    i ∈ ((cfg0.win 13).blk t).view.set ↔ ∀ a : Fin 2, win0_13.index t a * S2048x1.size a ≤ (i a).val
      ∧ (i a).val < win0_13.index t a * S2048x1.size a + S2048x1.size a := by
  show i ∈ ((View.whole main_v9).slice (win0_13.rect t)).set ↔ _
  rw [View.set_slice_whole, Rect.mem_set_unit]
  exact Iff.rfl

/-- Row `r` of the result is written back by the last tile of batch half `r / 2048`. -/
theorem cover (i : S4096x1.Idx) :
    ∃ t : Fin cfg0.N, (cfg0.win 13).flush t = true ∧ i ∈ ((cfg0.win 13).blk t).view.set := by
  have hi0 : (i 0).val < 4096 := (i 0).isLt
  have hi1 : (i 1).val < 1 := (i 1).isLt
  have hlt : (i 0).val / 2048 * 41 + 40 < cfg0.N := by rw [show cfg0.N = 82 from N_0]; omega
  refine ⟨⟨(i 0).val / 2048 * 41 + 40, hlt⟩, (flush0_13 _).mpr (by show ((i 0).val / 2048 * 41 + 40) % 41 = 40; omega), ?_⟩
  obtain ⟨e0, e1⟩ := idx13 ⟨(i 0).val / 2048 * 41 + 40, hlt⟩
  rw [mem_blk]
  intro a
  match a with
  | ⟨0, _⟩ =>
    show win0_13.index _ (0 : Fin 2) * 2048 ≤ (i 0).val ∧ (i 0).val < win0_13.index _ (0 : Fin 2) * 2048 + 2048
    rw [e0]
    show ((i 0).val / 2048 * 41 + 40) / 41 * 2048 ≤ (i 0).val ∧ (i 0).val < ((i 0).val / 2048 * 41 + 40) / 41 * 2048 + 2048
    omega
  | ⟨1, _⟩ =>
    show win0_13.index _ (1 : Fin 2) * 1 ≤ (i 1).val ∧ (i 1).val < win0_13.index _ (1 : Fin 2) * 1 + 1
    rw [e1]
    omega

/-- The result array after the run is the specification's result. -/
theorem final (c : Dev nD) : (dats m 0 c).arrAt 13 cfg0.N = result m c :=
  (dats m 0 c).arrAt_eq_of_cover 13 (result m c) (flushed_eq m c) cover

/-! ## The run, read -/

/-- Every weakly fair execution of the idealized kernel terminates with the result array at the specification's result
    of the argument arrays, and the arguments unchanged. -/
theorem run : θ_run defs (onTc (τ := τ) (main (F := Ideal))) ⟨m, fun _ => 0, ρ⟩ fun r => ∀ c : Dev nD,
      r.2.mem ((c : Thread nD τ).loc main_v9) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨(h c).1.trans (final m c), (h c).2⟩) (Value.run_blocks m ρ)

end Cert.KernelIdeal.Final

end
-- ==== Proof.RefIsNet.lean ====
/-
  The reference program's result is the specified network, index by index.

  The reference is read one operation at a time: each side's accumulator entry is a feature row dotted with a weight
  row plus a bias; the two concatenations lay the two accumulator vectors side by side in either order; the blend
  multiplies them by one minus the flag and by the flag and adds; each clamp is the minimum of one and the maximum of
  zero and its argument, with the two literals kept as words; each dense layer is a dot product over the previous
  layer plus a bias. Every step is the same expression the specification spells, so no algebraic law is used.
-/
import proofs.«128210_j78331613544881_2_alg».proof.Proof.Spec
import proofs.«128210_j78331613544881_2_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefNet

open Cert.ReferenceIdeal Cert.ReferenceIdeal.Gen Cert.ReferenceIdeal.Read Idealize.ShloMosaic Idealize.ShloMosaic.ValueIdx

/-! ## The accumulators -/

theorem lidx_white (r : Fin 4096) (h : Fin 256) (k : Fin 41920) : lidx_main_v1 (ix2 r h) k = ix2 r k :=
  funext fun a => Fin.ext (by match a with | ⟨0, _⟩ => rfl | ⟨1, _⟩ => rfl)

theorem ridx_white (r : Fin 4096) (h : Fin 256) (k : Fin 41920) : idx_main_v0 (ridx_main_v1 (ix2 r h) k) = ix2 h k :=
  funext fun a => Fin.ext (by match a with | ⟨0, _⟩ => rfl | ⟨1, _⟩ => rfl)

theorem bidx_white (r : Fin 4096) (h : Fin 256) : idx_main_v2 (idx_main_v3 (ix2 r h)) = ix1 h :=
  funext fun a => Fin.ext (by match a with | ⟨0, _⟩ => rfl)

/-- The white side's accumulator entry: feature row `r` dotted with weight row `h`, plus the bias at `h`. -/
theorem white_accum (x0 : (⟨S4096x41920, .f32⟩ : BufTy).Contents (Elt Ideal))
    (x3 : (⟨S256x41920, .f32⟩ : BufTy).Contents (Elt Ideal)) (x4 : (⟨S256, .f32⟩ : BufTy).Contents (Elt Ideal))
    (r : Fin 4096) (h : Fin 256) :
    val_main_v4 (F := Ideal) x0 x3 x4 (ix2 r h) = Cert.Spec.accum x0 x3 x4 r h := by
  rw [val_main_v4_apply, val_main_v1_apply, val_main_v3_apply, val_main_v2_apply]
  simp only [val_main_v0_apply, lidx_white, ridx_white, bidx_white, Ideal.addf_def]
  rfl

theorem lidx_black (r : Fin 4096) (h : Fin 256) (k : Fin 41920) : lidx_main_v6 (ix2 r h) k = ix2 r k :=
  funext fun a => Fin.ext (by match a with | ⟨0, _⟩ => rfl | ⟨1, _⟩ => rfl)

theorem ridx_black (r : Fin 4096) (h : Fin 256) (k : Fin 41920) : idx_main_v5 (ridx_main_v6 (ix2 r h) k) = ix2 h k :=
  funext fun a => Fin.ext (by match a with | ⟨0, _⟩ => rfl | ⟨1, _⟩ => rfl)

theorem bidx_black (r : Fin 4096) (h : Fin 256) : idx_main_v7 (idx_main_v8 (ix2 r h)) = ix1 h :=
  funext fun a => Fin.ext (by match a with | ⟨0, _⟩ => rfl)

/-- The black side's accumulator entry. -/
theorem black_accum (x1 : (⟨S4096x41920, .f32⟩ : BufTy).Contents (Elt Ideal))
    (x5 : (⟨S256x41920, .f32⟩ : BufTy).Contents (Elt Ideal)) (x6 : (⟨S256, .f32⟩ : BufTy).Contents (Elt Ideal))
    (r : Fin 4096) (h : Fin 256) :
    val_main_v9 (F := Ideal) x1 x5 x6 (ix2 r h) = Cert.Spec.accum x1 x5 x6 r h := by
  rw [val_main_v9_apply, val_main_v6_apply, val_main_v8_apply, val_main_v7_apply]
  simp only [val_main_v5_apply, lidx_black, ridx_black, bidx_black, Ideal.addf_def]
  rfl

/-! ## The two concatenations -/

/-- Two 256-wide arrays joined along the second axis, read at row `r` and entry `j`: the first array's row, then the
    second's. -/
theorem joined_row (u v : S4096x256.Idx → EReal) (r : Fin 4096) (j : Fin 512) :
    concatenate S4096x512 1 [⟨S4096x256, u⟩, ⟨S4096x256, v⟩] concatenates_S4096x256_S4096x256_S4096x512_d1 (ix2 r j)
      = Cert.Spec.sideBySide (fun h => u (ix2 r h)) (fun h => v (ix2 r h)) j := by
  unfold Cert.Spec.sideBySide
  by_cases hj : j.val < 256
  · rw [dif_pos hj]
    exact concatenate_pair_apply_left (1 : Fin S4096x512.rank) u v
      concatenates_S4096x256_S4096x256_S4096x512_d1 (ix2 r j) rfl (ix2 r ⟨j.val, hj⟩)
      (fun b => by match b with | ⟨0, _⟩ => rfl | ⟨1, _⟩ => rfl)
  · rw [dif_neg hj]
    exact concatenate_pair_apply_right (1 : Fin S4096x512.rank) u v
      concatenates_S4096x256_S4096x256_S4096x512_d1 (ix2 r j) rfl rfl
      (ix2 r ⟨j.val - 256, by have := j.isLt; omega⟩)
      (fun b hb => by match b, hb with | ⟨0, _⟩, _ => rfl | ⟨1, _⟩, hb => exact absurd rfl hb)
      (by show j.val - 256 + 256 = j.val; omega)

/-- The white accumulator row followed by the black one. -/
theorem white_black (x0 x1 : (⟨S4096x41920, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (r : Fin 4096) (j : Fin 512) :
    val_main_v12 (F := Ideal) x0 x1 x3 x4 x5 x6 (ix2 r j)
      = Cert.Spec.sideBySide (fun h => Cert.Spec.accum x0 x3 x4 r h) (fun h => Cert.Spec.accum x1 x5 x6 r h) j := by
  unfold val_main_v12
  rw [joined_row]
  simp only [white_accum, black_accum]

/-- The black accumulator row followed by the white one. -/
theorem black_white (x0 x1 : (⟨S4096x41920, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (r : Fin 4096) (j : Fin 512) :
    val_main_v15 (F := Ideal) x0 x1 x3 x4 x5 x6 (ix2 r j)
      = Cert.Spec.sideBySide (fun h => Cert.Spec.accum x1 x5 x6 r h) (fun h => Cert.Spec.accum x0 x3 x4 r h) j := by
  unfold val_main_v15
  rw [joined_row]
  simp only [white_accum, black_accum]

/-! ## The blend and its clamp -/

theorem flag_idx_a (r : Fin 4096) (j : Fin 512) : idx_main_v13 (ix2 r j) = ix2 r (0 : Fin 1) :=
  funext fun a => Fin.ext (by match a with | ⟨0, _⟩ => rfl | ⟨1, _⟩ => rfl)

theorem flag_idx_b (r : Fin 4096) (j : Fin 512) : idx_main_v16 (ix2 r j) = ix2 r (0 : Fin 1) :=
  funext fun a => Fin.ext (by match a with | ⟨0, _⟩ => rfl | ⟨1, _⟩ => rfl)

/-- One minus the flag times (white, black), plus the flag times (black, white). -/
theorem blended (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (r : Fin 4096) (j : Fin 512) :
    val_main_v18 (F := Ideal) x0 x1 x2 x3 x4 x5 x6 (ix2 r j)
      = Cert.Spec.blend (fun h => Cert.Spec.accum x0 x3 x4 r h) (fun h => Cert.Spec.accum x1 x5 x6 r h)
          (x2 (ix2 r (0 : Fin 1))) j := by
  rw [val_main_v18_apply, val_main_v14_apply, val_main_v17_apply, val_main_v13_apply, val_main_v11_apply,
    val_main_v10_apply, val_main_cst_apply, val_main_v16_apply, white_black, black_white, flag_idx_a, flag_idx_b]
  simp only [Ideal.addf_def, Ideal.mulf_def, Ideal.subf_def, Ideal.ofBits_def]
  rfl

/-- The clamped blend. -/
theorem clamped_blend (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (r : Fin 4096) (j : Fin 512) :
    val_main_v19 (F := Ideal) x0 x1 x2 x3 x4 x5 x6 (ix2 r j)
      = Cert.Spec.clip (Cert.Spec.blend (fun h => Cert.Spec.accum x0 x3 x4 r h) (fun h => Cert.Spec.accum x1 x5 x6 r h)
          (x2 (ix2 r (0 : Fin 1))) j) := by
  rw [val_main_v19_apply, val_main_call0_v4_apply, val_main_call0_v3_apply, val_main_cst_1_apply, val_main_call0_v2_apply,
    val_main_call0_v1_apply, val_main_call0_v0_apply, val_main_cst_0_apply, blended]
  simp only [Ideal.minimumf_def, Ideal.maximumf_def, Ideal.ofBits_def]
  rfl

/-! ## The three dense layers -/

theorem lidx_h1 (r : Fin 4096) (a : Fin 32) (k : Fin 512) : lidx_main_v21 (ix2 r a) k = ix2 r k :=
  funext fun b => Fin.ext (by match b with | ⟨0, _⟩ => rfl | ⟨1, _⟩ => rfl)

theorem ridx_h1 (r : Fin 4096) (a : Fin 32) (k : Fin 512) : idx_main_v20 (ridx_main_v21 (ix2 r a) k) = ix2 a k :=
  funext fun b => Fin.ext (by match b with | ⟨0, _⟩ => rfl | ⟨1, _⟩ => rfl)

theorem bidx_h1 (r : Fin 4096) (a : Fin 32) : idx_main_v22 (idx_main_v23 (ix2 r a)) = ix1 a :=
  funext fun b => Fin.ext (by match b with | ⟨0, _⟩ => rfl)

/-- The first dense layer on the clamped blend. -/
theorem first_layer (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (r : Fin 4096) (a : Fin 32) :
    val_main_v24 (F := Ideal) x0 x1 x2 x3 x4 x5 x6 x7 x8 (ix2 r a)
      = Cert.Spec.hidden1 (fun h => Cert.Spec.accum x0 x3 x4 r h) (fun h => Cert.Spec.accum x1 x5 x6 r h) (x2 (ix2 r (0 : Fin 1))) x7 x8 a := by
  rw [val_main_v24_apply, val_main_v21_apply, val_main_v23_apply, val_main_v22_apply]
  simp only [val_main_v20_apply, lidx_h1, ridx_h1, bidx_h1, clamped_blend, Ideal.addf_def]
  rfl

/-- The clamped first layer. -/
theorem clamped_first (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (r : Fin 4096) (a : Fin 32) :
    val_main_v25 (F := Ideal) x0 x1 x2 x3 x4 x5 x6 x7 x8 (ix2 r a)
      = Cert.Spec.clip (Cert.Spec.hidden1 (fun h => Cert.Spec.accum x0 x3 x4 r h) (fun h => Cert.Spec.accum x1 x5 x6 r h) (x2 (ix2 r (0 : Fin 1))) x7 x8 a) := by
  rw [val_main_v25_apply, val_main_call1_v4_apply, val_main_call1_v3_apply, val_main_cst_3_apply, val_main_call1_v2_apply,
    val_main_call1_v1_apply, val_main_call1_v0_apply, val_main_cst_2_apply, first_layer]
  simp only [Ideal.minimumf_def, Ideal.maximumf_def, Ideal.ofBits_def]
  rfl

theorem lidx_h2 (r : Fin 4096) (a : Fin 32) (k : Fin 32) : lidx_main_v27 (ix2 r a) k = ix2 r k :=
  funext fun b => Fin.ext (by match b with | ⟨0, _⟩ => rfl | ⟨1, _⟩ => rfl)

theorem ridx_h2 (r : Fin 4096) (a : Fin 32) (k : Fin 32) : idx_main_v26 (ridx_main_v27 (ix2 r a) k) = ix2 a k :=
  funext fun b => Fin.ext (by match b with | ⟨0, _⟩ => rfl | ⟨1, _⟩ => rfl)

theorem bidx_h2 (r : Fin 4096) (a : Fin 32) : idx_main_v28 (idx_main_v29 (ix2 r a)) = ix1 a :=
  funext fun b => Fin.ext (by match b with | ⟨0, _⟩ => rfl)

/-- The second dense layer on the clamped first layer. -/
theorem second_layer (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (r : Fin 4096) (a : Fin 32) :
    val_main_v30 (F := Ideal) x0 x1 x2 x3 x4 x5 x6 x7 x8 x9 x10 (ix2 r a)
      = Cert.Spec.hidden2 (fun h => Cert.Spec.accum x0 x3 x4 r h) (fun h => Cert.Spec.accum x1 x5 x6 r h) (x2 (ix2 r (0 : Fin 1))) x7 x8 x9 x10 a := by
  rw [val_main_v30_apply, val_main_v27_apply, val_main_v29_apply, val_main_v28_apply]
  simp only [val_main_v26_apply, lidx_h2, ridx_h2, bidx_h2, clamped_first, Ideal.addf_def]
  rfl

/-- The clamped second layer. -/
theorem clamped_second (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (r : Fin 4096) (a : Fin 32) :
    val_main_v31 (F := Ideal) x0 x1 x2 x3 x4 x5 x6 x7 x8 x9 x10 (ix2 r a)
      = Cert.Spec.clip (Cert.Spec.hidden2 (fun h => Cert.Spec.accum x0 x3 x4 r h) (fun h => Cert.Spec.accum x1 x5 x6 r h) (x2 (ix2 r (0 : Fin 1))) x7 x8 x9 x10 a) := by
  rw [val_main_v31_apply, val_main_call2_v4_apply, val_main_call2_v3_apply, val_main_cst_5_apply, val_main_call2_v2_apply,
    val_main_call2_v1_apply, val_main_call2_v0_apply, val_main_cst_4_apply, second_layer]
  simp only [Ideal.minimumf_def, Ideal.maximumf_def, Ideal.ofBits_def]
  rfl

theorem lidx_out (r : Fin 4096) (k : Fin 32) : lidx_main_v33 (ix2 r (0 : Fin 1)) k = ix2 r k :=
  funext fun b => Fin.ext (by match b with | ⟨0, _⟩ => rfl | ⟨1, _⟩ => rfl)

theorem ridx_out (r : Fin 4096) (k : Fin 32) : idx_main_v32 (ridx_main_v33 (ix2 r (0 : Fin 1)) k) = ix2 (0 : Fin 1) k :=
  funext fun b => Fin.ext (by match b with | ⟨0, _⟩ => rfl | ⟨1, _⟩ => rfl)

theorem bidx_out (r : Fin 4096) : idx_main_v34 (idx_main_v35 (ix2 r (0 : Fin 1))) = ix1 (0 : Fin 1) :=
  funext fun b => Fin.ext (by match b with | ⟨0, _⟩ => rfl)

/-- The output layer: the clamped second layer dotted with the one output row, plus the output bias. -/
theorem output_layer (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal))
    (r : Fin 4096) :
    val_main_v36 (F := Ideal) x0 x1 x2 x3 x4 x5 x6 x7 x8 x9 x10 x11 x12 (ix2 r (0 : Fin 1))
      = Cert.Spec.score (fun h => Cert.Spec.accum x0 x3 x4 r h) (fun h => Cert.Spec.accum x1 x5 x6 r h) (x2 (ix2 r (0 : Fin 1))) x7 x8 x9 x10 x11 x12 := by
  rw [val_main_v36_apply, val_main_v33_apply, val_main_v35_apply, val_main_v34_apply]
  simp only [val_main_v32_apply, lidx_out, ridx_out, bidx_out, clamped_second, Ideal.addf_def]
  rfl

/-! ## The whole result -/

/-- The reference program's result array is the specified network of its thirteen arguments. -/
theorem reference_is_net (x0 x1 : (⟨S4096x41920, .f32⟩ : BufTy).Contents (Elt Ideal)) (x2 : (⟨S4096x1, .f32⟩ : BufTy).Contents (Elt Ideal))
    (x3 : (⟨S256x41920, .f32⟩ : BufTy).Contents (Elt Ideal)) (x4 : (⟨S256, .f32⟩ : BufTy).Contents (Elt Ideal))
    (x5 : (⟨S256x41920, .f32⟩ : BufTy).Contents (Elt Ideal)) (x6 : (⟨S256, .f32⟩ : BufTy).Contents (Elt Ideal))
    (x7 : (⟨S32x512, .f32⟩ : BufTy).Contents (Elt Ideal)) (x8 : (⟨S32, .f32⟩ : BufTy).Contents (Elt Ideal))
    (x9 : (⟨S32x32, .f32⟩ : BufTy).Contents (Elt Ideal)) (x10 : (⟨S32, .f32⟩ : BufTy).Contents (Elt Ideal))
    (x11 : (⟨S1x32, .f32⟩ : BufTy).Contents (Elt Ideal)) (x12 : (⟨S1, .f32⟩ : BufTy).Contents (Elt Ideal)) :
    Cert.ReferenceIdeal.Read.val_main_v36 (F := Ideal) x0 x1 x2 x3 x4 x5 x6 x7 x8 x9 x10 x11 x12
      = Cert.Spec.net x0 x1 x2 x3 x4 x5 x6 x7 x8 x9 x10 x11 x12 := by
  funext i
  obtain ⟨r, c, rfl⟩ : ∃ (r : Fin 4096) (c : Fin 1), i = ix2 r c := ⟨i 0, i 1, eq_ix2 i⟩
  obtain rfl : c = 0 := Subsingleton.elim c 0
  rw [output_layer]
  rfl

end Cert.ReferenceIdeal.RefNet

end
-- ==== Proof.lean ====
/-
  The kernel and its reference compute one function of their thirteen argument arrays over the extended reals, and
  the kernel's three programs run to completion leaving those arrays unchanged.

  The function (Proof/Spec.lean): for each of 4096 rows, the white and black feature rows are dotted with 256 weight
  rows each and biased; the two 256-vectors are laid side by side in both orders and blended by the row's
  side-to-move flag; the blend is clamped to [0, 1] and sent through dense layers 512 -> 32 -> 32 -> 1, each input
  clamped. The reference computes exactly this, operation by operation (Proof/RefIsNet.lean). The kernel walks a
  2 x 41 grid: batch half by feature tile. It pads the 41920 features with zeros to 41 tiles of 1024, adds each tile's
  products into two accumulators that it clears at the first tile of a batch half, and at the last tile applies the
  blend and the dense layers to the finished accumulators and writes back that half of the result. An accumulator
  after the last tile is the ordered chain of 41 tile sums starting from zero, which is the plain sum over the 41920
  features because the padded products are 0 * 0 = 0 and addition of extended reals is commutative and associative
  (Proof/KAccum.lean over Proof/Spec.lean's tiled-sum law): no entry needs to be finite, and the precondition is not
  opened. The two write-backs cover the result array (Proof/KFinal.lean). The idealization rewrote nothing, so the
  kernel as printed and its idealization are one text read at two instances.
-/
import proofs.«128210_j78331613544881_2_alg».proof.Defs
import proofs.«128210_j78331613544881_2_alg».proof.Proof.Gen.Kernel
import proofs.«128210_j78331613544881_2_alg».proof.Proof.Gen.Kernel.Skeleton
import proofs.«128210_j78331613544881_2_alg».proof.Proof.Gen.Kernel.Launch
import proofs.«128210_j78331613544881_2_alg».proof.Proof.Gen.Kernel.Points
import proofs.«128210_j78331613544881_2_alg».proof.Proof.Gen.Kernel.Frame
import proofs.«128210_j78331613544881_2_alg».proof.Proof.Gen.KernelIdeal
import proofs.«128210_j78331613544881_2_alg».proof.Proof.Gen.KernelIdeal.Skeleton
import proofs.«128210_j78331613544881_2_alg».proof.Proof.Gen.KernelIdeal.Launch
import proofs.«128210_j78331613544881_2_alg».proof.Proof.Gen.KernelIdeal.Points
import proofs.«128210_j78331613544881_2_alg».proof.Proof.Gen.KernelIdeal.Frame
import proofs.«128210_j78331613544881_2_alg».proof.Proof.Gen.ReferenceIdeal
import proofs.«128210_j78331613544881_2_alg».proof.Proof.Gen.KernelIdeal.Value
import proofs.«128210_j78331613544881_2_alg».proof.Proof.Gen.ReferenceIdeal.Run
import proofs.«128210_j78331613544881_2_alg».proof.Proof.Gen.ReferenceIdeal.Read
import proofs.«128210_j78331613544881_2_alg».proof.Proof.Gen.Pre_finite_inputs
import proofs.«128210_j78331613544881_2_alg».proof.Proof.KFinal
import proofs.«128210_j78331613544881_2_alg».proof.Proof.RefIsNet
import Idealize.ShloMosaic.Adequacy
import Idealize.ShloMosaic.Init

noncomputable section

namespace Cert.Proof

open Idealize.ShloMosaic Idealize.SL.Sem

/-- The kernel as printed terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the specification's result of those
    arguments: the kernel by its run read block by block, the reference by its run read operation by operation. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12⟩ := hagree c
  refine (Cert.ReferenceIdeal.Read.val_main_v36_eq (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8))
      (m' ((c.tc : Thread Cert.ReferenceIdeal.nD Cert.ReferenceIdeal.τ).loc Cert.ReferenceIdeal.main_arg9))
      (m' ((c.tc : Thread Cert.ReferenceIdeal.nD Cert.ReferenceIdeal.τ).loc Cert.ReferenceIdeal.main_arg10))
      (m' ((c.tc : Thread Cert.ReferenceIdeal.nD Cert.ReferenceIdeal.τ).loc Cert.ReferenceIdeal.main_arg11))
      (m' ((c.tc : Thread Cert.ReferenceIdeal.nD Cert.ReferenceIdeal.τ).loc Cert.ReferenceIdeal.main_arg12))).trans ?_
  rw [Cert.ReferenceIdeal.RefNet.reference_is_net, a0, a1, a2, a3, a4, a5, a6, a7, a8, a9, a10, a11, a12]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
